-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part5 {F : FTy → Type} [FloatOps F] (main_arg19 : FVec F S40 .f32) (main_v83 : IVec S_ 1) (main_v84 : FVec F S128x40 .f32) (main_cst_32 : FVec F S_ .f32) : IVec S_ 1 :=
  let main_v85 : FVec F S128x40 .f32 := broadcastInDim S128x40 ![] bcast_S_S128x40 main_cst_32
  let main_v86 : IVec S128x40 1 := cmpf .olt main_v84 main_v85
  let main_c_33 : IVec S_ 1 := constantI S_ 1 1#1
  let main_v87 : IVec S_ 1 := (fun x v => Host.reduce IntOp.andi x v reducesTo_S128x40_S_d0_1 h_S_) main_v86 main_c_33
  let main_v88 : IVec S_ 1 := andi main_v83 main_v87
  let main_v89 : FVec F S40 .f32 := Host.absf main_arg19
  let main_cst_34 : FVec F S_ .f32 := constant S_ .f32 0x7F800000#32
  let main_v90 : FVec F S40 .f32 := broadcastInDim S40 ![] bcast_S_S40 main_cst_34
  let main_v91 : IVec S40 1 := cmpf .olt main_v89 main_v90
  let main_c_35 : IVec S_ 1 := constantI S_ 1 1#1
  let main_v92 : IVec S_ 1 := (fun x v => Host.reduce IntOp.andi x v reducesTo_S40_S_d0 h_S_) main_v91 main_c_35
  let main_v93 : IVec S_ 1 := andi main_v88 main_v92
  main_v93

def fn_part4 {F : FTy → Type} [FloatOps F] (main_arg15 : FVec F S128 .f32) (main_arg16 : FVec F S128x128 .f32) (main_arg17 : FVec F S128 .f32) (main_arg18 : FVec F S128x40 .f32) (main_arg19 : FVec F S40 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x40 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x40 .f32) (main_arg19 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x40 .f32) (main_arg19 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x40 .f32) (main_arg19 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x40 .f32) (main_arg19 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1x128 : Shape := ⟨2, ![1, 128]⟩
abbrev S1700000x128 : Shape := ⟨2, ![1700000, 128]⟩
abbrev S100000x40 : Shape := ⟨2, ![100000, 40]⟩
abbrev S10000x40 : Shape := ⟨2, ![10000, 40]⟩
abbrev S1x40 : Shape := ⟨2, ![1, 40]⟩

abbrev nBuf : Space → Nat
  | .hbm => 128
  | .vmem => 66
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x40, .f32⟩
  | .hbm, ⟨19, _⟩ => ⟨S40, .f32⟩
  | .hbm, ⟨20, _⟩ => ⟨S100000, .i32⟩
  | .hbm, ⟨21, _⟩ => ⟨S1x1600000, .i32⟩
  | .hbm, ⟨22, _⟩ => ⟨S1600000, .i32⟩
  | .hbm, ⟨23, _⟩ => ⟨S1700000, .i32⟩
  | .hbm, ⟨24, _⟩ => ⟨S1x1600000, .i32⟩
  | .hbm, ⟨25, _⟩ => ⟨S1600000, .i32⟩
  | .hbm, ⟨26, _⟩ => ⟨S1700000, .i32⟩
  | .hbm, ⟨27, _⟩ => ⟨S_, .f32⟩
  | .hbm, ⟨28, _⟩ => ⟨S1700000, .f32⟩
  | .hbm, ⟨29, _⟩ => ⟨S_, .f32⟩
  | .hbm, ⟨30, _⟩ => ⟨S100000, .f32⟩
  | .hbm, ⟨31, _⟩ => ⟨S1700000x1, .i32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x1, .f32⟩
  | .hbm, ⟨66, _⟩ => ⟨S1700000x128, .f32⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x128, .f32⟩
  | .hbm, ⟨102, _⟩ => ⟨S1700000x1, .f32⟩
  | .hbm, ⟨103, _⟩ => ⟨S1700000x128, .f32⟩
  | .hbm, ⟨104, _⟩ => ⟨S1700000x128, .f32⟩
  | .hbm, ⟨105, _⟩ => ⟨S_, .f32⟩
  | .hbm, ⟨106, _⟩ => ⟨S100000x128, .f32⟩
  | .hbm, ⟨107, _⟩ => ⟨S1700000x1, .i32⟩
  | .hbm, ⟨108, _⟩ => ⟨S100000x128, .f32⟩
  | .hbm, ⟨109, _⟩ => ⟨S100000x128, .f32⟩
  | .hbm, ⟨110, _⟩ => ⟨S_, .i32⟩
  | .hbm, ⟨111, _⟩ => ⟨S1700000, .i32⟩
  | .hbm, ⟨112, _⟩ => ⟨S1700000, .i1⟩
  | .hbm, ⟨113, _⟩ => ⟨S_, .i32⟩
  | .hbm, ⟨114, _⟩ => ⟨S1700000, .i32⟩
  | .hbm, ⟨115, _⟩ => ⟨S1700000, .i32⟩
  | .hbm, ⟨116, _⟩ => ⟨S1700000, .i32⟩
  | .hbm, ⟨117, _⟩ => ⟨S1700000x1, .i32⟩
  | .hbm, ⟨118, _⟩ => ⟨S1700000x128, .f32⟩
  | .hbm, ⟨119, _⟩ => ⟨S1700000x1, .f32⟩
  | .hbm, ⟨120, _⟩ => ⟨S1700000x128, .f32⟩
  | .hbm, ⟨121, _⟩ => ⟨S1700000x128, .f32⟩
  | .hbm, ⟨122, _⟩ => ⟨S_, .f32⟩
  | .hbm, ⟨123, _⟩ => ⟨S100000x128, .f32⟩
  | .hbm, ⟨124, _⟩ => ⟨S1700000x1, .i32⟩
  | .hbm, ⟨125, _⟩ => ⟨S100000x128, .f32⟩
  | .hbm, ⟨126, _⟩ => ⟨S100000x128, .f32⟩
  | .hbm, ⟨127, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S128x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S128, .f32⟩
  | .local _ .vmem, ⟨27, _⟩ => ⟨S128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S128x128, .f32⟩
  | .local _ .vmem, ⟨33, _⟩ => ⟨S128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S128x128, .f32⟩
  | .local _ .vmem, ⟨39, _⟩ => ⟨S128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S128x128, .f32⟩
  | .local _ .vmem, ⟨45, _⟩ => ⟨S10000x128, .f32⟩
  | .local _ .vmem, ⟨46, _⟩ => ⟨S10000x128, .f32⟩
  | .local _ .vmem, ⟨47, _⟩ => ⟨S10000x128, .f32⟩
  | .local _ .vmem, ⟨48, _⟩ => ⟨S10000x128, .f32⟩
  | .local _ .vmem, ⟨49, _⟩ => ⟨S128x128, .f32⟩
  | .local _ .vmem, ⟨50, _⟩ => ⟨S10000x128, .f32⟩
  | .local _ .vmem, ⟨51, _⟩ => ⟨S10000x128, .f32⟩
  | .local _ .vmem, ⟨52, _⟩ => ⟨S10000x128, .f32⟩
  | .local _ .vmem, ⟨53, _⟩ => ⟨S10000x128, .f32⟩
  | .local _ .vmem, ⟨54, _⟩ => ⟨S10000x128, .f32⟩
  | .local _ .vmem, ⟨55, _⟩ => ⟨S10000x128, .f32⟩
  | .local _ .vmem, ⟨56, _⟩ => ⟨S128, .f32⟩
  | .local _ .vmem, ⟨57, _⟩ => ⟨S128, .f32⟩
  | .local _ .vmem, ⟨58, _⟩ => ⟨S10000x128, .f32⟩
  | .local _ .vmem, ⟨59, _⟩ => ⟨S10000x128, .f32⟩
  | .local _ .vmem, ⟨60, _⟩ => ⟨S10000x128, .f32⟩
  | .local _ .vmem, ⟨61, _⟩ => ⟨S10000x128, .f32⟩
  | .local _ .vmem, ⟨62, _⟩ => ⟨S128x40, .f32⟩
  | .local _ .vmem, ⟨63, _⟩ => ⟨S40, .f32⟩
  | .local _ .vmem, ⟨64, _⟩ => ⟨S10000x40, .f32⟩
  | .local _ .vmem, ⟨65, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_2 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_4 : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_7 : Ref sig .tc := ⟨.hbm, 73, rfl⟩
abbrev main_v44 : Ref sig .tc := ⟨.hbm, 74, rfl⟩
abbrev main_v45 : Ref sig .tc := ⟨.hbm, 75, rfl⟩
abbrev main_c_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_10 : Ref sig .tc := ⟨.hbm, 93, rfl⟩
abbrev main_v61 : Ref sig .tc := ⟨.hbm, 94, rfl⟩
abbrev main_v62 : Ref sig .tc := ⟨.hbm, 95, rfl⟩
abbrev main_c_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_13 : Ref sig .tc := ⟨.hbm, 110, rfl⟩
abbrev main_v75 : Ref sig .tc := ⟨.hbm, 111, rfl⟩
abbrev main_v76 : Ref sig .tc := ⟨.hbm, 112, rfl⟩
abbrev main_c_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_15 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg4_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg2_1 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg2_0 : Ref sig .tc := ⟨.vmem, 50, rfl⟩
abbrev cc8_stg2_1 : Ref sig .tc := ⟨.vmem, 51, rfl⟩
abbrev cc9_stg0_0 : Ref sig .tc := ⟨.vmem, 52, rfl⟩
abbrev cc9_stg0_1 : Ref sig .tc := ⟨.vmem, 53, rfl⟩
abbrev cc9_stg1_0 : Ref sig .tc := ⟨.vmem, 54, rfl⟩
abbrev cc9_stg1_1 : Ref sig .tc := ⟨.vmem, 55, rfl⟩
abbrev cc9_stg2_0 : Ref sig .tc := ⟨.vmem, 56, rfl⟩
abbrev cc9_stg3_0 : Ref sig .tc := ⟨.vmem, 57, rfl⟩
abbrev cc9_stg4_0 : Ref sig .tc := ⟨.vmem, 58, rfl⟩
abbrev cc9_stg4_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg2_0 : Ref sig .tc := ⟨.vmem, 63, rfl⟩
abbrev cc10_stg3_0 : Ref sig .tc := ⟨.vmem, 64, rfl⟩
abbrev cc10_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem3_0 : DmaSem sig := 27
abbrev cc4_sem4_0 : DmaSem sig := 28
abbrev cc4_sem4_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem2_1 : DmaSem sig := 46
abbrev cc8_sem0_0 : DmaSem sig := 47
abbrev cc8_sem0_1 : DmaSem sig := 48
abbrev cc8_sem1_0 : DmaSem sig := 49
abbrev cc8_sem2_0 : DmaSem sig := 50
abbrev cc8_sem2_1 : DmaSem sig := 51
abbrev cc9_sem0_0 : DmaSem sig := 52
abbrev cc9_sem0_1 : DmaSem sig := 53
abbrev cc9_sem1_0 : DmaSem sig := 54
abbrev cc9_sem1_1 : DmaSem sig := 55
abbrev cc9_sem2_0 : DmaSem sig := 56
abbrev cc9_sem3_0 : DmaSem sig := 57
abbrev cc9_sem4_0 : DmaSem sig := 58
abbrev cc9_sem4_1 : DmaSem sig := 59
abbrev cc10_sem0_0 : DmaSem sig := 60
abbrev cc10_sem0_1 : DmaSem sig := 61
abbrev cc10_sem1_0 : DmaSem sig := 62
abbrev cc10_sem2_0 : DmaSem sig := 63
abbrev cc10_sem3_0 : DmaSem sig := 64
abbrev cc10_sem3_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S10000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x40 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S40 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S10000x40 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  shapeCasts_S10000x128_S10000x128 : S10000x128.ShapeCasts S10000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x40_S10000x40_1_0_0_1_n_n_wf : DotDims.WF S10000x128 S128x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S100000x128.size a
  hwx4_4 : ∀ i : grid4.Coords, EltTy.bits .f32 = 32 ∨ (Rect.block (s := S100000x128) S10000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S100000x128.size a
  hwx5_3 : ∀ i : grid5.Coords, EltTy.bits .f32 = 32 ∨ (Rect.block (s := S100000x128) S10000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x128.size a ≤ S100000x128.size a
  hwx6_3 : ∀ i : grid6.Coords, EltTy.bits .f32 = 32 ∨ (Rect.block (s := S100000x128) S10000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S100000x128.size a
  hwx7_2 : ∀ i : grid7.Coords, EltTy.bits .f32 = 32 ∨ (Rect.block (s := S100000x128) S10000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x128.size a ≤ S100000x128.size a
  hwx8_2 : ∀ i : grid8.Coords, EltTy.bits .f32 = 32 ∨ (Rect.block (s := S100000x128) S10000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S100000x128.size a
  hwx9_0 : ∀ i : grid9.Coords, EltTy.bits .f32 = 32 ∨ (Rect.block (s := S100000x128) S10000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x128.size a ≤ S100000x128.size a
  hwx9_1 : ∀ i : grid9.Coords, EltTy.bits .f32 = 32 ∨ (Rect.block (s := S100000x128) S10000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128.size a ≤ S128.size a
  hwx9_2 : ∀ i : grid9.Coords, EltTy.bits .f32 = 32 ∨ (Rect.block (s := S128) S128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128.size a ≤ S128.size a
  hwx9_3 : ∀ i : grid9.Coords, EltTy.bits .f32 = 32 ∨ (Rect.block (s := S128) S128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S10000x128.size a ≤ S100000x128.size a
  hwx9_4 : ∀ i : grid9.Coords, EltTy.bits .f32 = 32 ∨ (Rect.block (s := S100000x128) S10000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x128.size a ≤ S100000x128.size a
  hwx10_0 : ∀ i : grid10.Coords, EltTy.bits .f32 = 32 ∨ (Rect.block (s := S100000x128) S10000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x40.size a ≤ S128x40.size a
  hwx10_1 : ∀ i : grid10.Coords, EltTy.bits .f32 = 32 ∨ (Rect.block (s := S128x40) S128x40.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S40.size a ≤ S40.size a
  hwx10_2 : ∀ i : grid10.Coords, EltTy.bits .f32 = 32 ∨ (Rect.block (s := S40) S40.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S10000x40.size a ≤ S100000x40.size a
  hwx10_3 : ∀ i : grid10.Coords, EltTy.bits .f32 = 32 ∨ (Rect.block (s := S100000x40) S10000x40.size (cc10_transform_3 i) (hinb10_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v28) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v42) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v57) S10000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_arg0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg11) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v58) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v57) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg13) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v59) S10000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v58) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg14) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v60) S10000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v59) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg16) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v74) S10000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v73) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v87) S10000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg15) S128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg17) S128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v88) S10000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v88) S10000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg18) S128x40.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg19) S40.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v89) S10000x40.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1700000x128 : Shape := ⟨2, ![1700000, 128]⟩
abbrev S100000x40 : Shape := ⟨2, ![100000, 40]⟩
abbrev S1x40 : Shape := ⟨2, ![1, 40]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x40, .f32⟩
  | 19 => ⟨S40, .f32⟩
  | 20 => ⟨S100000, .i32⟩
  | 21 => ⟨S1x1600000, .i32⟩
  | 22 => ⟨S1600000, .i32⟩
  | 23 => ⟨S1700000, .i32⟩
  | 24 => ⟨S1x1600000, .i32⟩
  | 25 => ⟨S1600000, .i32⟩
  | 26 => ⟨S1700000, .i32⟩
  | 27 => ⟨S_, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x128, .f32⟩
  | 54 => ⟨S1x128, .f32⟩
  | 55 => ⟨S100000x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S100000x128, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x1, .f32⟩
  | 72 => ⟨S1700000x128, .f32⟩
  | 73 => ⟨S1700000x128, .f32⟩
  | 74 => ⟨S_, .f32⟩
  | 75 => ⟨S100000x128, .f32⟩
  | 76 => ⟨S1700000x1, .i32⟩
  | 77 => ⟨S100000x128, .f32⟩
  | 78 => ⟨S1x128, .f32⟩
  | 79 => ⟨S100000x128, .f32⟩
  | 80 => ⟨S100000x128, .f32⟩
  | 81 => ⟨S100000x128, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000x128, .f32⟩
  | 91 => ⟨S1700000x1, .f32⟩
  | 92 => ⟨S1700000x128, .f32⟩
  | 93 => ⟨S1700000x128, .f32⟩
  | 94 => ⟨S_, .f32⟩
  | 95 => ⟨S100000x128, .f32⟩
  | 96 => ⟨S1700000x1, .i32⟩
  | 97 => ⟨S100000x128, .f32⟩
  | 98 => ⟨S1x128, .f32⟩
  | 99 => ⟨S100000x128, .f32⟩
  | 100 => ⟨S100000x128, .f32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S100000x128, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x1, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S100000x128, .f32⟩
  | 4 => ⟨S_, .i32⟩
  | 5 => ⟨S1700000, .i32⟩
  | 6 => ⟨S1700000, .i1⟩
  | 7 => ⟨S_, .i32⟩
  | 8 => ⟨S1700000, .i32⟩
  | 9 => ⟨S1700000, .i32⟩
  | 10 => ⟨S1700000, .i32⟩
  | 11 => ⟨S1700000x1, .i32⟩
  | 12 => ⟨S1700000x128, .f32⟩
  | 13 => ⟨S1700000x1, .f32⟩
  | 14 => ⟨S1700000x128, .f32⟩
  | 15 => ⟨S1700000x128, .f32⟩
  | 16 => ⟨S_, .f32⟩
  | 17 => ⟨S100000x128, .f32⟩
  | 18 => ⟨S1700000x1, .i32⟩
  | 19 => ⟨S100000x128, .f32⟩
  | 20 => ⟨S1x128, .f32⟩
  | 21 => ⟨S100000x128, .f32⟩
  | 22 => ⟨S100000x128, .f32⟩
  | 23 => ⟨S100000x128, .f32⟩
  | 24 => ⟨S100000x128, .f32⟩
  | 25 => ⟨S100000x40, .f32⟩
  | 26 => ⟨S1x40, .f32⟩
  | 27 => ⟨S100000x40, .f32⟩
  | 28 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_2 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_4 : Ref sig .tc := ⟨.hbm, 62, rfl⟩
abbrev main_v36 : Ref sig .tc := ⟨.hbm, 63, rfl⟩
abbrev main_v37 : Ref sig .tc := ⟨.hbm, 64, rfl⟩
abbrev main_c_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_7 : Ref sig .tc := ⟨.hbm, 82, rfl⟩
abbrev main_v53 : Ref sig .tc := ⟨.hbm, 83, rfl⟩
abbrev main_v54 : Ref sig .tc := ⟨.hbm, 84, rfl⟩
abbrev main_c_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_10 : Ref sig .tc := ⟨.hbm, 112, rfl⟩
abbrev main_v80 : Ref sig .tc := ⟨.hbm, 113, rfl⟩
abbrev main_v81 : Ref sig .tc := ⟨.hbm, 114, rfl⟩
abbrev main_c_11 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_12 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_13 : Ref sig .tc := ⟨.hbm, 132, rfl⟩
abbrev main_v97 : Ref sig .tc := ⟨.hbm, 133, rfl⟩
abbrev main_v98 : Ref sig .tc := ⟨.hbm, 134, rfl⟩
abbrev main_c_14 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_15 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.RunValue.lean ====
/-
  The idealized kernel's run with its result named: every weakly fair execution of @main terminates without a
  fault, the arguments end as launched, and the result array `main_v89` ends at what the last of the sixteen
  segment boundaries holds there. (The frame only says the arguments are kept; the value of the result is read off
  the same chain of segments.)
-/
import proofs.«163266_j14061722927669_1_alg».proof.Proof.Gen.KernelIdeal.Frame

set_option maxRecDepth 16384

noncomputable section

namespace Cert.Gcn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the sixteen segments, read at the result's buffer as well as at the arguments'. -/
theorem run_result : θ_run defs (onTc (τ := τ) (main (F := F))) ⟨m, fun _ => 0, ρ⟩ (fun r => ∀ c : Dev nD,
      r.2.mem ((c.tc : Thread nD τ).loc main_v89) = W16 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v89 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c)⟩)

end Cert.Gcn.Run

end
-- ==== Proof.Tiles.lean ====
/-
  One grid point of each of the three kernel bodies, entry by entry, on the extended reals.
  A tile is 10000 rows of the node array. The affine body multiplies the tile by a 128-column weight into a zero
  accumulator and adds the bias row to every row: entry (p, q) is the sum over k of tile (p, k) times weight (k, q),
  plus bias q. The plain product body is the same without the bias. The merge body adds a bias row to each of two
  tiles and returns the first sum twice plus the second.
-/
import proofs.«163266_j14061722927669_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.Gcn

open Cert.KernelIdeal Cert.KernelIdeal.Gen Idealize.ShloMosaic Idealize.ShloMosaic.TcCoe

/-! ## The product of a tile with a [128, 128] weight -/

/-- The left operand's index at output index `i`, contraction index `q`: row `i 0`. -/
theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (row of `i`, `k`) of the left tile. -/
abbrev rowAt (i : S10000x128.Idx) (k : Fin 128) : S10000x128.Idx := fun a => match a with
  | ⟨0, _⟩ => ⟨(i 0).val, (i 0).isLt⟩
  | ⟨1, _⟩ => ⟨k.val, k.isLt⟩
/-- Entry (`k`, column of `i`) of the weight. -/
abbrev colAt (i : S10000x128.Idx) (k : Fin 128) : S128x128.Idx := fun a => match a with
  | ⟨0, _⟩ => ⟨k.val, k.isLt⟩
  | ⟨1, _⟩ => ⟨(i 1).val, (i 1).isLt⟩

/-- The tile product into a zero accumulator, at an entry: the sum over the 128 contracted positions of
    row entry times column entry. -/
theorem tileDot_apply (x : FVec Ideal S10000x128 .f32) (w : FVec Ideal S128x128 .f32) (i : S10000x128.Idx) :
    matmul dot_S10000x128_S128x128_S10000x128_1_0_0_1_n_n none x w (constant S10000x128 .f32 0x00000000#32) i
      = ∑ k : Fin 128, x (rowAt i k) * w (colAt i k) := by
  show FloatOps.matmul dot_S10000x128_S128x128_S10000x128_1_0_0_1_n_n none x w (constant S10000x128 .f32 0x00000000#32) i = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = rowAt i k := funext fun a => Fin.ext (by
    match a with
    | ⟨0, _⟩ => exact lhs_0 _ _
    | ⟨1, _⟩ => exact (lhs_1 _ _).trans hk)
  have er : dot_S10000x128_S128x128_S10000x128_1_0_0_1_n_n.rhsIdx i ((ValueIdx.contrEquiv1 dot_S10000x128_S128x128_S10000x128_1_0_0_1_n_n 128 rfl rfl).symm k) = colAt i k := funext fun a => Fin.ext (by
    match a with
    | ⟨0, _⟩ => exact (rhs_0 _ _).trans hk
    | ⟨1, _⟩ => exact rhs_1 _ _)
  rw [el, er]

/-! ## The product of a tile with the [128, 40] classifier weight -/

/-- The left operand's index at output index `i`, contraction index `q`: row `i 0`. -/
theorem lhsC_0 (i : S10000x40.Idx) (q : dot_S10000x128_S128x40_S10000x40_1_0_0_1_n_n.contr.Idx) :
    (dot_S10000x128_S128x40_S10000x40_1_0_0_1_n_n.lhsIdx i q 0).val = (i 0).val := by
  unfold DotDims.lhsIdx
  rw [dif_neg (show ¬(0 : Fin S10000x128.rank) ∈ dot_S10000x128_S128x40_S10000x40_1_0_0_1_n_n.lhsBatch by decide), dif_pos (show (0 : Fin S10000x128.rank) ∈ dot_S10000x128_S128x40_S10000x40_1_0_0_1_n_n.lhsNonContracting by decide)]
  rfl
theorem lhsC_1 (i : S10000x40.Idx) (q : dot_S10000x128_S128x40_S10000x40_1_0_0_1_n_n.contr.Idx) :
    (dot_S10000x128_S128x40_S10000x40_1_0_0_1_n_n.lhsIdx i q 1).val = (q ⟨0, by decide⟩).val :=
  dot_S10000x128_S128x40_S10000x40_1_0_0_1_n_n.lhsIdx_val_of_single rfl i q
theorem rhsC_0 (i : S10000x40.Idx) (q : dot_S10000x128_S128x40_S10000x40_1_0_0_1_n_n.contr.Idx) :
    (dot_S10000x128_S128x40_S10000x40_1_0_0_1_n_n.rhsIdx i q 0).val = (q ⟨0, by decide⟩).val :=
  dot_S10000x128_S128x40_S10000x40_1_0_0_1_n_n.rhsIdx_val_of_single rfl i q
theorem rhsC_1 (i : S10000x40.Idx) (q : dot_S10000x128_S128x40_S10000x40_1_0_0_1_n_n.contr.Idx) :
    (dot_S10000x128_S128x40_S10000x40_1_0_0_1_n_n.rhsIdx i q 1).val = (i 1).val := by
  unfold DotDims.rhsIdx
  rw [dif_neg (show ¬(1 : Fin S128x40.rank) ∈ dot_S10000x128_S128x40_S10000x40_1_0_0_1_n_n.rhsBatch by decide), dif_pos (show (1 : Fin S128x40.rank) ∈ dot_S10000x128_S128x40_S10000x40_1_0_0_1_n_n.rhsNonContracting by decide)]
  rfl

/-- Entry (row of `i`, `k`) of the left tile. -/
abbrev rowAtC (i : S10000x40.Idx) (k : Fin 128) : S10000x128.Idx := fun a => match a with
  | ⟨0, _⟩ => ⟨(i 0).val, (i 0).isLt⟩
  | ⟨1, _⟩ => ⟨k.val, k.isLt⟩
/-- Entry (`k`, column of `i`) of the weight. -/
abbrev colAtC (i : S10000x40.Idx) (k : Fin 128) : S128x40.Idx := fun a => match a with
  | ⟨0, _⟩ => ⟨k.val, k.isLt⟩
  | ⟨1, _⟩ => ⟨(i 1).val, (i 1).isLt⟩

/-- The tile product into a zero accumulator, at an entry: the sum over the 128 contracted positions of
    row entry times column entry. -/
theorem tileDotC_apply (x : FVec Ideal S10000x128 .f32) (w : FVec Ideal S128x40 .f32) (i : S10000x40.Idx) :
    matmul dot_S10000x128_S128x40_S10000x40_1_0_0_1_n_n none x w (constant S10000x40 .f32 0x00000000#32) i
      = ∑ k : Fin 128, x (rowAtC i k) * w (colAtC i k) := by
  show FloatOps.matmul dot_S10000x128_S128x40_S10000x40_1_0_0_1_n_n none x w (constant S10000x40 .f32 0x00000000#32) i = _
  rw [Ideal.matmul_constant_zero_apply, ← Equiv.sum_comp (ValueIdx.contrEquiv1 dot_S10000x128_S128x40_S10000x40_1_0_0_1_n_n 128 rfl rfl).symm]
  refine Finset.sum_congr rfl fun k _ => ?_
  have hk := ValueIdx.contrEquiv1_symm_val dot_S10000x128_S128x40_S10000x40_1_0_0_1_n_n 128 rfl rfl k
  have el : dot_S10000x128_S128x40_S10000x40_1_0_0_1_n_n.lhsIdx i ((ValueIdx.contrEquiv1 dot_S10000x128_S128x40_S10000x40_1_0_0_1_n_n 128 rfl rfl).symm k) = rowAtC i k := funext fun a => Fin.ext (by
    match a with
    | ⟨0, _⟩ => exact lhsC_0 _ _
    | ⟨1, _⟩ => exact (lhsC_1 _ _).trans hk)
  have er : dot_S10000x128_S128x40_S10000x40_1_0_0_1_n_n.rhsIdx i ((ValueIdx.contrEquiv1 dot_S10000x128_S128x40_S10000x40_1_0_0_1_n_n 128 rfl rfl).symm k) = colAtC i k := funext fun a => Fin.ext (by
    match a with
    | ⟨0, _⟩ => exact (rhsC_0 _ _).trans hk
    | ⟨1, _⟩ => exact rhsC_1 _ _)
  rw [el, er]

/-! ## The bias row repeated down a tile -/

/-- The bias entry an output entry reads: its column. -/
abbrev laneAt (i : S10000x128.Idx) : S128.Idx := fun a => match a with
  | ⟨0, _⟩ => ⟨(i 1).val, (i 1).isLt⟩
/-- The same as an entry of the one-row array. -/
abbrev rowLaneAt (i : S10000x128.Idx) : S1x128.Idx := fun a => match a with
  | ⟨0, _⟩ => ⟨0, Nat.one_pos⟩
  | ⟨1, _⟩ => ⟨(i 1).val, (i 1).isLt⟩

/-- A bias vector laid as one row and repeated down the rows, at an entry: the bias at the entry's column. -/
theorem biasRows_apply (b : FVec Ideal S128 .f32) (i : S10000x128.Idx) :
    broadcastTo S10000x128 (shapeCast S1x128 b shapeCasts_S128_S1x128) broadcasts_S1x128_S10000x128 i = b (laneAt i) := by
  refine (broadcastTo_apply _ broadcasts_S1x128_S10000x128 i (rowLaneAt i) (fun a => match a with
    | ⟨0, _⟩ => by show 0 = if (1 : Nat) = 1 then 0 else _; rw [if_pos rfl]
    | ⟨1, _⟩ => by show (i 1).val = if (128 : Nat) = 1 then 0 else _; rw [if_neg (by decide)]; rfl)).trans ?_
  refine shapeCast_apply _ shapeCasts_S128_S1x128 (rowLaneAt i) (laneAt i) ?_
  rw [Shape.rowMajor_val_one, Shape.rowMajor_val_two]
  show (i 1).val = 0 * 128 + (i 1).val
  omega

/-- The bias entry an output entry reads: its column. -/
abbrev laneAtC (i : S10000x40.Idx) : S40.Idx := fun a => match a with
  | ⟨0, _⟩ => ⟨(i 1).val, (i 1).isLt⟩
/-- The same as an entry of the one-row array. -/
abbrev rowLaneAtC (i : S10000x40.Idx) : S1x40.Idx := fun a => match a with
  | ⟨0, _⟩ => ⟨0, Nat.one_pos⟩
  | ⟨1, _⟩ => ⟨(i 1).val, (i 1).isLt⟩

/-- A bias vector laid as one row and repeated down the rows, at an entry: the bias at the entry's column. -/
theorem biasRowsC_apply (b : FVec Ideal S40 .f32) (i : S10000x40.Idx) :
    broadcastTo S10000x40 (shapeCast S1x40 b shapeCasts_S40_S1x40) broadcasts_S1x40_S10000x40 i = b (laneAtC i) := by
  refine (broadcastTo_apply _ broadcasts_S1x40_S10000x40 i (rowLaneAtC i) (fun a => match a with
    | ⟨0, _⟩ => by show 0 = if (1 : Nat) = 1 then 0 else _; rw [if_pos rfl]
    | ⟨1, _⟩ => by show (i 1).val = if (40 : Nat) = 1 then 0 else _; rw [if_neg (by decide)]; rfl)).trans ?_
  refine shapeCast_apply _ shapeCasts_S40_S1x40 (rowLaneAtC i) (laneAtC i) ?_
  rw [Shape.rowMajor_val_one, Shape.rowMajor_val_two]
  show (i 1).val = 0 * 40 + (i 1).val
  omega

/-! ## The three bodies at an entry -/

/-- The affine body: product plus bias. -/
def affineTile (x : Vec Ideal S10000x128 .f32) (w : Vec Ideal S128x128 .f32) (b : Vec Ideal S128 .f32) : S10000x128.Idx → EReal :=
  fun i => (∑ k : Fin 128, x (rowAt i k) * w (colAt i k)) + b (laneAt i)
/-- The classifier's affine body, 40 columns. -/
def affineTileC (x : Vec Ideal S10000x128 .f32) (w : Vec Ideal S128x40 .f32) (b : Vec Ideal S40 .f32) : S10000x40.Idx → EReal :=
  fun i => (∑ k : Fin 128, x (rowAtC i k) * w (colAtC i k)) + b (laneAtC i)
/-- The plain product body. -/
def dotTile (x : Vec Ideal S10000x128 .f32) (w : Vec Ideal S128x128 .f32) : S10000x128.Idx → EReal :=
  fun i => ∑ k : Fin 128, x (rowAt i k) * w (colAt i k)
/-- The merge body: with g0 = s0 + b0 and g1 = s1 + b1 row by row, g0 + g0 + g1. -/
def mergeTile (s0 : Vec Ideal S10000x128 .f32) (b0 : Vec Ideal S128 .f32) (s1 : Vec Ideal S10000x128 .f32) (b1 : Vec Ideal S128 .f32) : S10000x128.Idx → EReal :=
  fun i => ((s0 i + b0 (laneAt i)) + (s0 i + b0 (laneAt i))) + (s1 i + b1 (laneAt i))

theorem pay_affine_a (x : Vec Ideal S10000x128 .f32) (w : Vec Ideal S128x128 .f32) (b : Vec Ideal S128 .f32) :
    k0_pay1 (F := Ideal) x w b = affineTile x w b := by
  funext i
  unfold k0_pay1 affineTile
  exact congrArg₂ (· + ·) (tileDot_apply x w i) (biasRows_apply b i)
theorem pay_affine_b (x : Vec Ideal S10000x128 .f32) (w : Vec Ideal S128x128 .f32) (b : Vec Ideal S128 .f32) :
    k6_pay1 (F := Ideal) x w b = affineTile x w b := by
  funext i
  unfold k6_pay1 affineTile
  rw [shapeCast_self]
  exact congrArg₂ (· + ·) (tileDot_apply x w i) (biasRows_apply b i)
theorem pay_affine_c (x : Vec Ideal S10000x128 .f32) (w : Vec Ideal S128x40 .f32) (b : Vec Ideal S40 .f32) :
    k10_pay1 (F := Ideal) x w b = affineTileC x w b := by
  funext i
  unfold k10_pay1 affineTileC
  rw [shapeCast_self]
  exact congrArg₂ (· + ·) (tileDotC_apply x w i) (biasRowsC_apply b i)
theorem pay_dot (x : Vec Ideal S10000x128 .f32) (w : Vec Ideal S128x128 .f32) :
    k2_pay1 (F := Ideal) x w = dotTile x w := by
  funext i
  unfold k2_pay1 dotTile
  rw [shapeCast_self]
  exact tileDot_apply x w i
theorem pay_merge (s0 : Vec Ideal S10000x128 .f32) (b0 : Vec Ideal S128 .f32) (s1 : Vec Ideal S10000x128 .f32) (b1 : Vec Ideal S128 .f32) :
    k4_pay1 (F := Ideal) s0 b0 s1 b1 = mergeTile s0 b0 s1 b1 := by
  funext i
  unfold k4_pay1 mergeTile
  rw [shapeCast_self, shapeCast_self]
  show ((s0 i + _) + (s0 i + _)) + (s1 i + _) = _
  rw [biasRows_apply b0 i, biasRows_apply b1 i]

end Cert.Gcn

end
-- ==== Proof.Spec.lean ====
/-
  The network's dense steps as whole-array functions on the extended reals, entry by entry.
  Node arrays are [100000, 128]. An affine step sends X to X·W + b: entry (n, q) is the sum over k of X (n, k)·W (k, q),
  plus b q. A merge step takes two aggregated arrays S0, S1 and two bias vectors and returns, with G0 = S0 + b0 and
  G1 = S1 + b1 row by row, G0 + G0 + G1. The classifier is an affine step into 40 columns.
-/
import Idealize.ShloMosaic.PureOps.Ideal
import Idealize.ShloMosaic.Lib.ValueIdx

noncomputable section

namespace Cert.Gcn

open Idealize.ShloMosaic

/-- Entry (node of `i`, `k`) of a node array. -/
abbrev nodeRow (i : (⟨2, ![100000, 128]⟩ : Shape).Idx) (k : Fin 128) : (⟨2, ![100000, 128]⟩ : Shape).Idx := fun a => match a with
  | ⟨0, _⟩ => ⟨(i 0).val, (i 0).isLt⟩
  | ⟨1, _⟩ => ⟨k.val, k.isLt⟩
/-- Entry (`k`, column of `i`) of a [128, 128] weight. -/
abbrev weightCol (i : (⟨2, ![100000, 128]⟩ : Shape).Idx) (k : Fin 128) : (⟨2, ![128, 128]⟩ : Shape).Idx := fun a => match a with
  | ⟨0, _⟩ => ⟨k.val, k.isLt⟩
  | ⟨1, _⟩ => ⟨(i 1).val, (i 1).isLt⟩
/-- The bias entry of `i`'s column. -/
abbrev biasLane (i : (⟨2, ![100000, 128]⟩ : Shape).Idx) : (⟨1, ![128]⟩ : Shape).Idx := fun a => match a with
  | ⟨0, _⟩ => ⟨(i 1).val, (i 1).isLt⟩
/-- Entry (node of `i`, `k`) of a node array, for a classifier entry `i`. -/
abbrev nodeRowC (i : (⟨2, ![100000, 40]⟩ : Shape).Idx) (k : Fin 128) : (⟨2, ![100000, 128]⟩ : Shape).Idx := fun a => match a with
  | ⟨0, _⟩ => ⟨(i 0).val, (i 0).isLt⟩
  | ⟨1, _⟩ => ⟨k.val, k.isLt⟩
/-- Entry (`k`, class of `i`) of the [128, 40] classifier weight. -/
abbrev weightColC (i : (⟨2, ![100000, 40]⟩ : Shape).Idx) (k : Fin 128) : (⟨2, ![128, 40]⟩ : Shape).Idx := fun a => match a with
  | ⟨0, _⟩ => ⟨k.val, k.isLt⟩
  | ⟨1, _⟩ => ⟨(i 1).val, (i 1).isLt⟩
/-- The classifier bias entry of `i`'s class. -/
abbrev biasLaneC (i : (⟨2, ![100000, 40]⟩ : Shape).Idx) : (⟨1, ![40]⟩ : Shape).Idx := fun a => match a with
  | ⟨0, _⟩ => ⟨(i 1).val, (i 1).isLt⟩

/-- X·W + b. -/
def affineAll (X : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun i => (∑ k : Fin 128, X (nodeRow i k) * W (weightCol i k)) + b (biasLane i)
/-- X·W. -/
def dotAll (X : (⟨2, ![100000, 128]⟩ : Shape).Idx → EReal) (W : (⟨2, ![128, 128]⟩ : Shape).Idx → EReal) :
    (⟨2, ![100000, 128]⟩ : Shape).Idx → EReal :=
  fun i => ∑ k : Fin 128, X (nodeRow i k) * W (weightCol i k)
/-- (S0 + b0) + (S0 + b0) + (S1 + b1). -/
def mergeAll (S0 : (⟨2, ![100000, 128]⟩ : Shape).Idx → EReal) (b0 : (⟨1, ![128]⟩ : Shape).Idx → EReal)
    (S1 : (⟨2, ![100000, 128]⟩ : Shape).Idx → EReal) (b1 : (⟨1, ![128]⟩ : Shape).Idx → EReal) :
    (⟨2, ![100000, 128]⟩ : Shape).Idx → EReal :=
  fun i => ((S0 i + b0 (biasLane i)) + (S0 i + b0 (biasLane i))) + (S1 i + b1 (biasLane i))
/-- The classifier: X·W + b into 40 columns. -/
def affineAllC (X : (⟨2, ![100000, 128]⟩ : Shape).Idx → EReal) (W : (⟨2, ![128, 40]⟩ : Shape).Idx → EReal)
    (b : (⟨1, ![40]⟩ : Shape).Idx → EReal) : (⟨2, ![100000, 40]⟩ : Shape).Idx → EReal :=
  fun i => (∑ k : Fin 128, X (nodeRowC i k) * W (weightColC i k)) + b (biasLaneC i)

end Cert.Gcn

end
-- ==== Proof.RegionsAffine.lean ====
/-
  The five affine regions of the idealized kernel (two per cell in front of the graph steps, one in the second cell
  after the first cell's merge, the classifier), each a grid of ten node tiles. Grid point t reads rows
  10000·t … 10000·t + 9999 of its node array, the whole weight and the whole bias, and writes the same rows of its
  output; the tile's entry (p, q) is the sum over k of tile (p, k)·W (k, q) plus b q, which is entry
  (10000·t + p, q) of X·W + b. The ten tiles cover all 100000 nodes, so the array ends at X·W + b.
-/
import proofs.«163266_j14061722927669_1_alg».proof.Proof.Gen.KernelIdeal.Frame
import proofs.«163266_j14061722927669_1_alg».proof.Proof.Tiles
import proofs.«163266_j14061722927669_1_alg».proof.Proof.Spec
import Idealize.ShloMosaic.Lib.Pipeline.Value

set_option maxRecDepth 16384

noncomputable section

namespace Cert.Gcn.Affine

open Cert.KernelIdeal Cert.KernelIdeal.Gen Cert.Gcn Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-! ## Region 0: what the array `main_v27` holds after it -/

/-- Where each window's block sits at grid point `t`: a node tile is rows 10000·t … 10000·t + 9999, a weight or bias is whole. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

set_option maxHeartbeats 4000000 in
/-- What grid point `t` writes back is tile `t` of the whole-array function of the arrays the region was entered with. -/
theorem flushed0 (c : Dev nD) (t : Fin cfg0.N) :
    (dat0 V c).flushed 3 t = ((cfg0.win 3).blk t).view.read (Elt Ideal) (affineAll (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x128) hz2, View.ld_unit_zero (S := S128) hz1]
  rw [pay_affine_a]
  obtain ⟨e0a, e0b, e1a, e1b, e2a, eoa, eob⟩ := idx_facts0 t
  funext j
  show affineTile (iblk0 V c 0 t) (iblk0 V c 1 t) (iblk0 V c 2 t) j = affineAll (V c main_arg0) (V c main_arg2) (V c main_arg3) (((cfg0.win 3).blk t).view.emb j)
  unfold affineTile affineAll
  have x0 : ∀ k : Fin 128, (((cfg0.win 0).blk t).view.emb (rowAt j k)) = nodeRow (((cfg0.win 3).blk t).view.emb j) k := fun k => by
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  have h0 : ∀ k : Fin 128, iblk0 V c 0 t (rowAt j k) = V c main_arg0 (nodeRow (((cfg0.win 3).blk t).view.emb j) k) := fun k =>
    show V c main_arg0 (((cfg0.win 0).blk t).view.emb (rowAt j k)) = _ from by rw [x0 k]
  have x1 : ∀ k : Fin 128, (((cfg0.win 1).blk t).view.emb (colAt j k)) = weightCol (((cfg0.win 3).blk t).view.emb j) k := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have h1 : ∀ k : Fin 128, iblk0 V c 1 t (colAt j k) = V c main_arg2 (weightCol (((cfg0.win 3).blk t).view.emb j) k) := fun k =>
    show V c main_arg2 (((cfg0.win 1).blk t).view.emb (colAt j k)) = _ from by rw [x1 k]
  have x2 : (((cfg0.win 2).blk t).view.emb (laneAt j)) = biasLane (((cfg0.win 3).blk t).view.emb j) := by
    funext a; apply Fin.ext
    match a with
    | ⟨0, _⟩ => show win0_2.index t (0 : Fin 1) * 128 + 1 * (j 1).val = win0_3.index t (1 : Fin 2) * 128 + 1 * (j 1).val; omega
  have h2 : iblk0 V c 2 t (laneAt j) = V c main_arg3 (biasLane (((cfg0.win 3).blk t).view.emb j)) :=
    show V c main_arg3 (((cfg0.win 2).blk t).view.emb (laneAt j)) = _ from by rw [x2]
  simp only [h0, h1, h2]

/-- An entry of the array is in tile `t` iff each coordinate is in the tile's range. -/
theorem mem_blk0 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v27).slice (win0_3.rect t)).set ↔ _
  rw [View.set_slice_whole, Rect.mem_set_unit]
  exact Iff.rfl

/-- The ten tiles cover the array: node `n` is in tile `n / 10000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 10 := N_0
  refine ⟨⟨(i 0).val / 10000, by show _ < grid0.N; omega⟩, flush0_3 _, ?_⟩
  rw [mem_blk0]
  obtain ⟨e0a, e0b, e1a, e1b, e2a, eoa, eob⟩ := idx_facts0 ⟨(i 0).val / 10000, by show _ < grid0.N; omega⟩
  intro a
  match a with
  | ⟨0, _⟩ =>
    show win0_3.index _ (0 : Fin 2) * 10000 ≤ (i 0).val ∧ (i 0).val < win0_3.index _ (0 : Fin 2) * 10000 + 10000
    rw [eoa]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [eob]; omega

/-- The array after the region. -/
theorem final0 (c : Dev nD) : (dat0 V c).arrAt 3 cfg0.N = affineAll (V c main_arg0) (V c main_arg2) (V c main_arg3) :=
  (dat0 V c).arrAt_eq_of_cover 3 _ (fun t _ => flushed0 V c t) (cover0)

/-! ## Region 1: what the array `main_v28` holds after it -/

theorem pay1_eq : @k1_pay1 = @k0_pay1 := rfl
/-- Where each window's block sits at grid point `t`: a node tile is rows 10000·t … 10000·t + 9999, a weight or bias is whole. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val
    ∧ win1_3.index t (1 : Fin 2) = 0 :=
  (by decide +kernel : ∀ t : Fin grid1.N, _)

set_option maxHeartbeats 4000000 in
/-- What grid point `t` writes back is tile `t` of the whole-array function of the arrays the region was entered with. -/
theorem flushed1 (c : Dev nD) (t : Fin cfg1.N) :
    (dat1 V c).flushed 3 t = ((cfg1.win 3).blk t).view.read (Elt Ideal) (affineAll (V c main_arg0) (V c main_arg4) (V c main_arg5)) := by
  show (cfg1.win 3).cut (grid1.coords t) ((dat1 V c).after 3 t) = _
  rw [after1_3]
  unfold out1_3
  rw [View.canon_unit_zero hz2]
  simp only [View.ld_unit_zero (S := S10000x128) hz2, View.ld_unit_zero (S := S128x128) hz2, View.ld_unit_zero (S := S128) hz1]
  rw [pay1_eq, pay_affine_a]
  obtain ⟨e0a, e0b, e1a, e1b, e2a, eoa, eob⟩ := idx_facts1 t
  funext j
  show affineTile (iblk1 V c 0 t) (iblk1 V c 1 t) (iblk1 V c 2 t) j = affineAll (V c main_arg0) (V c main_arg4) (V c main_arg5) (((cfg1.win 3).blk t).view.emb j)
  unfold affineTile affineAll
  have x0 : ∀ k : Fin 128, (((cfg1.win 0).blk t).view.emb (rowAt j k)) = nodeRow (((cfg1.win 3).blk t).view.emb j) k := fun k => by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  have h0 : ∀ k : Fin 128, iblk1 V c 0 t (rowAt j k) = V c main_arg0 (nodeRow (((cfg1.win 3).blk t).view.emb j) k) := fun k =>
    show V c main_arg0 (((cfg1.win 0).blk t).view.emb (rowAt j k)) = _ from by rw [x0 k]
  have x1 : ∀ k : Fin 128, (((cfg1.win 1).blk t).view.emb (colAt j k)) = weightCol (((cfg1.win 3).blk t).view.emb j) k := fun k => by
    funext a; apply Fin.ext
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  have h1 : ∀ k : Fin 128, iblk1 V c 1 t (colAt j k) = V c main_arg4 (weightCol (((cfg1.win 3).blk t).view.emb j) k) := fun k =>
    show V c main_arg4 (((cfg1.win 1).blk t).view.emb (colAt j k)) = _ from by rw [x1 k]
  have x2 : (((cfg1.win 2).blk t).view.emb (laneAt j)) = biasLane (((cfg1.win 3).blk t).view.emb j) := by
    funext a; apply Fin.ext
    match a with
    | ⟨0, _⟩ => show win1_2.index t (0 : Fin 1) * 128 + 1 * (j 1).val = win1_3.index t (1 : Fin 2) * 128 + 1 * (j 1).val; omega
  have h2 : iblk1 V c 2 t (laneAt j) = V c main_arg5 (biasLane (((cfg1.win 3).blk t).view.emb j)) :=
    show V c main_arg5 (((cfg1.win 2).blk t).view.emb (laneAt j)) = _ from by rw [x2]
  simp only [h0, h1, h2]

/-- An entry of the array is in tile `t` iff each coordinate is in the tile's range. -/
theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v28).slice (win1_3.rect t)).set ↔ _
  rw [View.set_slice_whole, Rect.mem_set_unit]
  exact Iff.rfl

/-- The ten tiles cover the array: node `n` is in tile `n / 10000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 10 := N_1
  refine ⟨⟨(i 0).val / 10000, by show _ < grid1.N; omega⟩, flush1_3 _, ?_⟩
  rw [mem_blk1]
  obtain ⟨e0a, e0b, e1a, e1b, e2a, eoa, eob⟩ := idx_facts1 ⟨(i 0).val / 10000, by show _ < grid1.N; omega⟩
  intro a
  match a with
  | ⟨0, _⟩ =>
    show win1_3.index _ (0 : Fin 2) * 10000 ≤ (i 0).val ∧ (i 0).val < win1_3.index _ (0 : Fin 2) * 10000 + 10000
    rw [eoa]; show (i 0).val / 10000 * 10000 ≤ (i 0).val ∧ (i 0).val < (i 0).val / 10000 * 10000 + 10000; omega
  | ⟨1, _⟩ =>
    show win1_3.index _ (1 : Fin 2) * 128 ≤ (i 1).val ∧ (i 1).val < win1_3.index _ (1 : Fin 2) * 128 + 128
    rw [eob]; omega

/-- The array after the region. -/
theorem final1 (c : Dev nD) : (dat1 V c).arrAt 3 cfg1.N = affineAll (V c main_arg0) (V c main_arg4) (V c main_arg5) :=
  (dat1 V c).arrAt_eq_of_cover 3 _ (fun t _ => flushed1 V c t) (cover1)

/-! ## Region 5: what the array `main_v58` holds after it -/

theorem pay5_eq : @k5_pay1 = @k0_pay1 := rfl
/-- Where each window's block sits at grid point `t`: a node tile is rows 10000·t … 10000·t + 9999, a weight or bias is whole. -/
theorem idx_facts5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 1) = 0
    ∧ win5_3.index t (0 : Fin 2) = t.val
    ∧ win5_3.index t (1 : Fin 2) = 0 :=
  (by decide +kernel : ∀ t : Fin grid5.N, _)

set_option maxHeartbeats 4000000 in
/-- What grid point `t` writes back is tile `t` of the whole-array function of the arrays the region was entered with. -/
theorem flushed5 (c : Dev nD) (t : Fin cfg5.N) :
    (dat5 V c).flushed 3 t = ((cfg5.win 3).blk t).view.read (Elt Ideal) (affineAll (V c main_arg0) (V c main_arg10) (V c main_arg11)) := by
  show (cfg5.win 3).cut (grid5.coords t) ((dat5 V c).after 3 t) = _
  rw [after5_3]
  unfold out5_3
  rw [View.canon_unit_zero hz2]
  simp only [View.ld_unit_zero (S := S10000x128) hz2, View.ld_unit_zero (S := S128x128) hz2, View.ld_unit_zero (S := S128) hz1]
  rw [pay5_eq, pay_affine_a]
  obtain ⟨e0a, e0b, e1a, e1b, e2a, eoa, eob⟩ := idx_facts5 t
  funext j
  show affineTile (iblk5 V c 0 t) (iblk5 V c 1 t) (iblk5 V c 2 t) j = affineAll (V c main_arg0) (V c main_arg10) (V c main_arg11) (((cfg5.win 3).blk t).view.emb j)
  unfold affineTile affineAll
  have x0 : ∀ k : Fin 128, (((cfg5.win 0).blk t).view.emb (rowAt j k)) = nodeRow (((cfg5.win 3).blk t).view.emb j) k := fun k => by
    funext a; apply Fin.ext
    match a with
    | ⟨0, _⟩ => show win5_0.index t (0 : Fin 2) * 10000 + 1 * (j 0).val = win5_3.index t (0 : Fin 2) * 10000 + 1 * (j 0).val; omega
    | ⟨1, _⟩ => show win5_0.index t (1 : Fin 2) * 128 + 1 * k.val = k.val; omega
  have h0 : ∀ k : Fin 128, iblk5 V c 0 t (rowAt j k) = V c main_arg0 (nodeRow (((cfg5.win 3).blk t).view.emb j) k) := fun k =>
    show V c main_arg0 (((cfg5.win 0).blk t).view.emb (rowAt j k)) = _ from by rw [x0 k]
  have x1 : ∀ k : Fin 128, (((cfg5.win 1).blk t).view.emb (colAt j k)) = weightCol (((cfg5.win 3).blk t).view.emb j) k := fun k => by
    funext a; apply Fin.ext
    match a with
    | ⟨0, _⟩ => show win5_1.index t (0 : Fin 2) * 128 + 1 * k.val = k.val; omega
    | ⟨1, _⟩ => show win5_1.index t (1 : Fin 2) * 128 + 1 * (j 1).val = win5_3.index t (1 : Fin 2) * 128 + 1 * (j 1).val; omega
  have h1 : ∀ k : Fin 128, iblk5 V c 1 t (colAt j k) = V c main_arg10 (weightCol (((cfg5.win 3).blk t).view.emb j) k) := fun k =>
    show V c main_arg10 (((cfg5.win 1).blk t).view.emb (colAt j k)) = _ from by rw [x1 k]
  have x2 : (((cfg5.win 2).blk t).view.emb (laneAt j)) = biasLane (((cfg5.win 3).blk t).view.emb j) := by
    funext a; apply Fin.ext
    match a with
    | ⟨0, _⟩ => show win5_2.index t (0 : Fin 1) * 128 + 1 * (j 1).val = win5_3.index t (1 : Fin 2) * 128 + 1 * (j 1).val; omega
  have h2 : iblk5 V c 2 t (laneAt j) = V c main_arg11 (biasLane (((cfg5.win 3).blk t).view.emb j)) :=
    show V c main_arg11 (((cfg5.win 2).blk t).view.emb (laneAt j)) = _ from by rw [x2]
  simp only [h0, h1, h2]

/-- An entry of the array is in tile `t` iff each coordinate is in the tile's range. -/
theorem mem_blk5 (t : Fin cfg5.N) (i : S100000x128.Idx) :
    i ∈ ((cfg5.win 3).blk t).view.set ↔ ∀ a : Fin 2, win5_3.index t a * S10000x128.size a ≤ (i a).val ∧ (i a).val < win5_3.index t a * S10000x128.size a + S10000x128.size a := by
  show i ∈ ((View.whole main_v58).slice (win5_3.rect t)).set ↔ _
  rw [View.set_slice_whole, Rect.mem_set_unit]
  exact Iff.rfl

/-- The ten tiles cover the array: node `n` is in tile `n / 10000`. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : grid5.N = 10 := N_5
  refine ⟨⟨(i 0).val / 10000, by show _ < grid5.N; omega⟩, flush5_3 _, ?_⟩
  rw [mem_blk5]
  obtain ⟨e0a, e0b, e1a, e1b, e2a, eoa, eob⟩ := idx_facts5 ⟨(i 0).val / 10000, by show _ < grid5.N; omega⟩
  intro a
  match a with
  | ⟨0, _⟩ =>
    show win5_3.index _ (0 : Fin 2) * 10000 ≤ (i 0).val ∧ (i 0).val < win5_3.index _ (0 : Fin 2) * 10000 + 10000
    rw [eoa]; show (i 0).val / 10000 * 10000 ≤ (i 0).val ∧ (i 0).val < (i 0).val / 10000 * 10000 + 10000; omega
  | ⟨1, _⟩ =>
    show win5_3.index _ (1 : Fin 2) * 128 ≤ (i 1).val ∧ (i 1).val < win5_3.index _ (1 : Fin 2) * 128 + 128
    rw [eob]; omega

/-- The array after the region. -/
theorem final5 (c : Dev nD) : (dat5 V c).arrAt 3 cfg5.N = affineAll (V c main_arg0) (V c main_arg10) (V c main_arg11) :=
  (dat5 V c).arrAt_eq_of_cover 3 _ (fun t _ => flushed5 V c t) (cover5)

/-! ## Region 6: what the array `main_v59` holds after it -/

/-- Where each window's block sits at grid point `t`: a node tile is rows 10000·t … 10000·t + 9999, a weight or bias is whole. -/
theorem idx_facts6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 1) = 0
    ∧ win6_3.index t (0 : Fin 2) = t.val
    ∧ win6_3.index t (1 : Fin 2) = 0 :=
  (by decide +kernel : ∀ t : Fin grid6.N, _)

set_option maxHeartbeats 4000000 in
/-- What grid point `t` writes back is tile `t` of the whole-array function of the arrays the region was entered with. -/
theorem flushed6 (c : Dev nD) (t : Fin cfg6.N) :
    (dat6 V c).flushed 3 t = ((cfg6.win 3).blk t).view.read (Elt Ideal) (affineAll (V c main_v57) (V c main_arg12) (V c main_arg13)) := by
  show (cfg6.win 3).cut (grid6.coords t) ((dat6 V c).after 3 t) = _
  rw [after6_3]
  unfold out6_3
  rw [View.canon_unit_zero hz2]
  simp only [View.ld_unit_zero (S := S10000x128) hz2, View.ld_unit_zero (S := S128x128) hz2, View.ld_unit_zero (S := S128) hz1]
  rw [pay_affine_b]
  obtain ⟨e0a, e0b, e1a, e1b, e2a, eoa, eob⟩ := idx_facts6 t
  funext j
  show affineTile (iblk6 V c 0 t) (iblk6 V c 1 t) (iblk6 V c 2 t) j = affineAll (V c main_v57) (V c main_arg12) (V c main_arg13) (((cfg6.win 3).blk t).view.emb j)
  unfold affineTile affineAll
  have x0 : ∀ k : Fin 128, (((cfg6.win 0).blk t).view.emb (rowAt j k)) = nodeRow (((cfg6.win 3).blk t).view.emb j) k := fun k => by
    funext a; apply Fin.ext
    match a with
    | ⟨0, _⟩ => show win6_0.index t (0 : Fin 2) * 10000 + 1 * (j 0).val = win6_3.index t (0 : Fin 2) * 10000 + 1 * (j 0).val; omega
    | ⟨1, _⟩ => show win6_0.index t (1 : Fin 2) * 128 + 1 * k.val = k.val; omega
  have h0 : ∀ k : Fin 128, iblk6 V c 0 t (rowAt j k) = V c main_v57 (nodeRow (((cfg6.win 3).blk t).view.emb j) k) := fun k =>
    show V c main_v57 (((cfg6.win 0).blk t).view.emb (rowAt j k)) = _ from by rw [x0 k]
  have x1 : ∀ k : Fin 128, (((cfg6.win 1).blk t).view.emb (colAt j k)) = weightCol (((cfg6.win 3).blk t).view.emb j) k := fun k => by
    funext a; apply Fin.ext
    match a with
    | ⟨0, _⟩ => show win6_1.index t (0 : Fin 2) * 128 + 1 * k.val = k.val; omega
    | ⟨1, _⟩ => show win6_1.index t (1 : Fin 2) * 128 + 1 * (j 1).val = win6_3.index t (1 : Fin 2) * 128 + 1 * (j 1).val; omega
  have h1 : ∀ k : Fin 128, iblk6 V c 1 t (colAt j k) = V c main_arg12 (weightCol (((cfg6.win 3).blk t).view.emb j) k) := fun k =>
    show V c main_arg12 (((cfg6.win 1).blk t).view.emb (colAt j k)) = _ from by rw [x1 k]
  have x2 : (((cfg6.win 2).blk t).view.emb (laneAt j)) = biasLane (((cfg6.win 3).blk t).view.emb j) := by
    funext a; apply Fin.ext
    match a with
    | ⟨0, _⟩ => show win6_2.index t (0 : Fin 1) * 128 + 1 * (j 1).val = win6_3.index t (1 : Fin 2) * 128 + 1 * (j 1).val; omega
  have h2 : iblk6 V c 2 t (laneAt j) = V c main_arg13 (biasLane (((cfg6.win 3).blk t).view.emb j)) :=
    show V c main_arg13 (((cfg6.win 2).blk t).view.emb (laneAt j)) = _ from by rw [x2]
  simp only [h0, h1, h2]

/-- An entry of the array is in tile `t` iff each coordinate is in the tile's range. -/
theorem mem_blk6 (t : Fin cfg6.N) (i : S100000x128.Idx) :
    i ∈ ((cfg6.win 3).blk t).view.set ↔ ∀ a : Fin 2, win6_3.index t a * S10000x128.size a ≤ (i a).val ∧ (i a).val < win6_3.index t a * S10000x128.size a + S10000x128.size a := by
  show i ∈ ((View.whole main_v59).slice (win6_3.rect t)).set ↔ _
  rw [View.set_slice_whole, Rect.mem_set_unit]
  exact Iff.rfl

/-- The ten tiles cover the array: node `n` is in tile `n / 10000`. -/
theorem cover6 (i : S100000x128.Idx) : ∃ t : Fin cfg6.N, (cfg6.win 3).flush t = true ∧ i ∈ ((cfg6.win 3).blk t).view.set := by
  have hi0 : (i 0).val < 100000 := (i 0).isLt
  have hi1 : (i 1).val < 128 := (i 1).isLt
  have hN : grid6.N = 10 := N_6
  refine ⟨⟨(i 0).val / 10000, by show _ < grid6.N; omega⟩, flush6_3 _, ?_⟩
  rw [mem_blk6]
  obtain ⟨e0a, e0b, e1a, e1b, e2a, eoa, eob⟩ := idx_facts6 ⟨(i 0).val / 10000, by show _ < grid6.N; omega⟩
  intro a
  match a with
  | ⟨0, _⟩ =>
    show win6_3.index _ (0 : Fin 2) * 10000 ≤ (i 0).val ∧ (i 0).val < win6_3.index _ (0 : Fin 2) * 10000 + 10000
    rw [eoa]; show (i 0).val / 10000 * 10000 ≤ (i 0).val ∧ (i 0).val < (i 0).val / 10000 * 10000 + 10000; omega
  | ⟨1, _⟩ =>
    show win6_3.index _ (1 : Fin 2) * 128 ≤ (i 1).val ∧ (i 1).val < win6_3.index _ (1 : Fin 2) * 128 + 128
    rw [eob]; omega

/-- The array after the region. -/
theorem final6 (c : Dev nD) : (dat6 V c).arrAt 3 cfg6.N = affineAll (V c main_v57) (V c main_arg12) (V c main_arg13) :=
  (dat6 V c).arrAt_eq_of_cover 3 _ (fun t _ => flushed6 V c t) (cover6)

/-! ## Region 10: what the array `main_v89` holds after it -/

/-- Where each window's block sits at grid point `t`: a node tile is rows 10000·t … 10000·t + 9999, a weight or bias is whole. -/
theorem idx_facts10 : ∀ t : Fin cfg10.N, win10_0.index t (0 : Fin 2) = t.val
    ∧ win10_0.index t (1 : Fin 2) = 0
    ∧ win10_1.index t (0 : Fin 2) = 0
    ∧ win10_1.index t (1 : Fin 2) = 0
    ∧ win10_2.index t (0 : Fin 1) = 0
    ∧ win10_3.index t (0 : Fin 2) = t.val
    ∧ win10_3.index t (1 : Fin 2) = 0 :=
  (by decide +kernel : ∀ t : Fin grid10.N, _)

set_option maxHeartbeats 4000000 in
/-- What grid point `t` writes back is tile `t` of the whole-array function of the arrays the region was entered with. -/
theorem flushed10 (c : Dev nD) (t : Fin cfg10.N) :
    (dat10 V c).flushed 3 t = ((cfg10.win 3).blk t).view.read (Elt Ideal) (affineAllC (V c main_v88) (V c main_arg18) (V c main_arg19)) := by
  show (cfg10.win 3).cut (grid10.coords t) ((dat10 V c).after 3 t) = _
  rw [after10_3]
  unfold out10_3
  rw [View.canon_unit_zero hz2]
  simp only [View.ld_unit_zero (S := S10000x128) hz2, View.ld_unit_zero (S := S128x40) hz2, View.ld_unit_zero (S := S40) hz1]
  rw [pay_affine_c]
  obtain ⟨e0a, e0b, e1a, e1b, e2a, eoa, eob⟩ := idx_facts10 t
  funext j
  show affineTileC (iblk10 V c 0 t) (iblk10 V c 1 t) (iblk10 V c 2 t) j = affineAllC (V c main_v88) (V c main_arg18) (V c main_arg19) (((cfg10.win 3).blk t).view.emb j)
  unfold affineTileC affineAllC
  have x0 : ∀ k : Fin 128, (((cfg10.win 0).blk t).view.emb (rowAtC j k)) = nodeRowC (((cfg10.win 3).blk t).view.emb j) k := fun k => by
    funext a; apply Fin.ext
    match a with
    | ⟨0, _⟩ => show win10_0.index t (0 : Fin 2) * 10000 + 1 * (j 0).val = win10_3.index t (0 : Fin 2) * 10000 + 1 * (j 0).val; omega
    | ⟨1, _⟩ => show win10_0.index t (1 : Fin 2) * 128 + 1 * k.val = k.val; omega
  have h0 : ∀ k : Fin 128, iblk10 V c 0 t (rowAtC j k) = V c main_v88 (nodeRowC (((cfg10.win 3).blk t).view.emb j) k) := fun k =>
    show V c main_v88 (((cfg10.win 0).blk t).view.emb (rowAtC j k)) = _ from by rw [x0 k]
  have x1 : ∀ k : Fin 128, (((cfg10.win 1).blk t).view.emb (colAtC j k)) = weightColC (((cfg10.win 3).blk t).view.emb j) k := fun k => by
    funext a; apply Fin.ext
    match a with
    | ⟨0, _⟩ => show win10_1.index t (0 : Fin 2) * 128 + 1 * k.val = k.val; omega
    | ⟨1, _⟩ => show win10_1.index t (1 : Fin 2) * 40 + 1 * (j 1).val = win10_3.index t (1 : Fin 2) * 40 + 1 * (j 1).val; omega
  have h1 : ∀ k : Fin 128, iblk10 V c 1 t (colAtC j k) = V c main_arg18 (weightColC (((cfg10.win 3).blk t).view.emb j) k) := fun k =>
    show V c main_arg18 (((cfg10.win 1).blk t).view.emb (colAtC j k)) = _ from by rw [x1 k]
  have x2 : (((cfg10.win 2).blk t).view.emb (laneAtC j)) = biasLaneC (((cfg10.win 3).blk t).view.emb j) := by
    funext a; apply Fin.ext
    match a with
    | ⟨0, _⟩ => show win10_2.index t (0 : Fin 1) * 40 + 1 * (j 1).val = win10_3.index t (1 : Fin 2) * 40 + 1 * (j 1).val; omega
  have h2 : iblk10 V c 2 t (laneAtC j) = V c main_arg19 (biasLaneC (((cfg10.win 3).blk t).view.emb j)) :=
    show V c main_arg19 (((cfg10.win 2).blk t).view.emb (laneAtC j)) = _ from by rw [x2]
  simp only [h0, h1, h2]

/-- An entry of the array is in tile `t` iff each coordinate is in the tile's range. -/
theorem mem_blk10 (t : Fin cfg10.N) (i : S100000x40.Idx) :
    i ∈ ((cfg10.win 3).blk t).view.set ↔ ∀ a : Fin 2, win10_3.index t a * S10000x40.size a ≤ (i a).val ∧ (i a).val < win10_3.index t a * S10000x40.size a + S10000x40.size a := by
  show i ∈ ((View.whole main_v89).slice (win10_3.rect t)).set ↔ _
  rw [View.set_slice_whole, Rect.mem_set_unit]
  exact Iff.rfl

/-- The ten tiles cover the array: node `n` is in tile `n / 10000`. -/
theorem cover10 (i : S100000x40.Idx) : ∃ t : Fin cfg10.N, (cfg10.win 3).flush t = true ∧ i ∈ ((cfg10.win 3).blk t).view.set := by
  have hi0 : (i 0).val < 100000 := (i 0).isLt
  have hi1 : (i 1).val < 40 := (i 1).isLt
  have hN : grid10.N = 10 := N_10
  refine ⟨⟨(i 0).val / 10000, by show _ < grid10.N; omega⟩, flush10_3 _, ?_⟩
  rw [mem_blk10]
  obtain ⟨e0a, e0b, e1a, e1b, e2a, eoa, eob⟩ := idx_facts10 ⟨(i 0).val / 10000, by show _ < grid10.N; omega⟩
  intro a
  match a with
  | ⟨0, _⟩ =>
    show win10_3.index _ (0 : Fin 2) * 10000 ≤ (i 0).val ∧ (i 0).val < win10_3.index _ (0 : Fin 2) * 10000 + 10000
    rw [eoa]; show (i 0).val / 10000 * 10000 ≤ (i 0).val ∧ (i 0).val < (i 0).val / 10000 * 10000 + 10000; omega
  | ⟨1, _⟩ =>
    show win10_3.index _ (1 : Fin 2) * 40 ≤ (i 1).val ∧ (i 1).val < win10_3.index _ (1 : Fin 2) * 40 + 40
    rw [eob]; omega

/-- The array after the region. -/
theorem final10 (c : Dev nD) : (dat10 V c).arrAt 3 cfg10.N = affineAllC (V c main_v88) (V c main_arg18) (V c main_arg19) :=
  (dat10 V c).arrAt_eq_of_cover 3 _ (fun t _ => flushed10 V c t) (cover10)

end Cert.Gcn.Affine

end
-- ==== Proof.RegionsDot.lean ====
/-
  The four plain-product regions (the transform in front of each graph aggregation): ten node tiles, tile t of X·W
  written to rows 10000·t … of the output; the tiles cover the array, which ends at X·W.
-/
import proofs.«163266_j14061722927669_1_alg».proof.Proof.Gen.KernelIdeal.Frame
import proofs.«163266_j14061722927669_1_alg».proof.Proof.Tiles
import proofs.«163266_j14061722927669_1_alg».proof.Proof.Spec
import Idealize.ShloMosaic.Lib.Pipeline.Value

set_option maxRecDepth 16384

noncomputable section

namespace Cert.Gcn.Dot

open Cert.KernelIdeal Cert.KernelIdeal.Gen Cert.Gcn Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-! ## Region 2: what the array `main_v29` holds after it -/

/-- Where each window's block sits at grid point `t`: a node tile is rows 10000·t … 10000·t + 9999, a weight or bias is whole. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

set_option maxHeartbeats 4000000 in
/-- What grid point `t` writes back is tile `t` of the whole-array function of the arrays the region was entered with. -/
theorem flushed2 (c : Dev nD) (t : Fin cfg2.N) :
    (dat2 V c).flushed 2 t = ((cfg2.win 2).blk t).view.read (Elt Ideal) (dotAll (V c main_v27) (V c main_arg6)) := by
  show (cfg2.win 2).cut (grid2.coords t) ((dat2 V c).after 2 t) = _
  rw [after2_2]
  unfold out2_2
  rw [View.canon_unit_zero hz2]
  simp only [View.ld_unit_zero (S := S10000x128) hz2, View.ld_unit_zero (S := S128x128) hz2]
  rw [pay_dot]
  obtain ⟨e0a, e0b, e1a, e1b, eoa, eob⟩ := idx_facts2 t
  funext j
  show dotTile (iblk2 V c 0 t) (iblk2 V c 1 t) j = dotAll (V c main_v27) (V c main_arg6) (((cfg2.win 2).blk t).view.emb j)
  unfold dotTile dotAll
  have x0 : ∀ k : Fin 128, (((cfg2.win 0).blk t).view.emb (rowAt j k)) = nodeRow (((cfg2.win 2).blk t).view.emb j) k := fun k => by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have h0 : ∀ k : Fin 128, iblk2 V c 0 t (rowAt j k) = V c main_v27 (nodeRow (((cfg2.win 2).blk t).view.emb j) k) := fun k =>
    show V c main_v27 (((cfg2.win 0).blk t).view.emb (rowAt j k)) = _ from by rw [x0 k]
  have x1 : ∀ k : Fin 128, (((cfg2.win 1).blk t).view.emb (colAt j k)) = weightCol (((cfg2.win 2).blk t).view.emb j) k := fun k => by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  have h1 : ∀ k : Fin 128, iblk2 V c 1 t (colAt j k) = V c main_arg6 (weightCol (((cfg2.win 2).blk t).view.emb j) k) := fun k =>
    show V c main_arg6 (((cfg2.win 1).blk t).view.emb (colAt j k)) = _ from by rw [x1 k]
  simp only [h0, h1]

/-- An entry of the array is in tile `t` iff each coordinate is in the tile's range. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v29).slice (win2_2.rect t)).set ↔ _
  rw [View.set_slice_whole, Rect.mem_set_unit]
  exact Iff.rfl

/-- The ten tiles cover the array: node `n` is in tile `n / 10000`. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 10 := N_2
  refine ⟨⟨(i 0).val / 10000, by show _ < grid2.N; omega⟩, flush2_2 _, ?_⟩
  rw [mem_blk2]
  obtain ⟨e0a, e0b, e1a, e1b, eoa, eob⟩ := idx_facts2 ⟨(i 0).val / 10000, by show _ < grid2.N; omega⟩
  intro a
  match a with
  | ⟨0, _⟩ =>
    show win2_2.index _ (0 : Fin 2) * 10000 ≤ (i 0).val ∧ (i 0).val < win2_2.index _ (0 : Fin 2) * 10000 + 10000
    rw [eoa]; show (i 0).val / 10000 * 10000 ≤ (i 0).val ∧ (i 0).val < (i 0).val / 10000 * 10000 + 10000; omega
  | ⟨1, _⟩ =>
    show win2_2.index _ (1 : Fin 2) * 128 ≤ (i 1).val ∧ (i 1).val < win2_2.index _ (1 : Fin 2) * 128 + 128
    rw [eob]; omega

/-- The array after the region. -/
theorem final2 (c : Dev nD) : (dat2 V c).arrAt 2 cfg2.N = dotAll (V c main_v27) (V c main_arg6) :=
  (dat2 V c).arrAt_eq_of_cover 2 _ (fun t _ => flushed2 V c t) (cover2)

/-! ## Region 3: what the array `main_v43` holds after it -/

theorem pay3_eq : @k3_pay1 = @k2_pay1 := rfl
/-- Where each window's block sits at grid point `t`: a node tile is rows 10000·t … 10000·t + 9999, a weight or bias is whole. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

set_option maxHeartbeats 4000000 in
/-- What grid point `t` writes back is tile `t` of the whole-array function of the arrays the region was entered with. -/
theorem flushed3 (c : Dev nD) (t : Fin cfg3.N) :
    (dat3 V c).flushed 2 t = ((cfg3.win 2).blk t).view.read (Elt Ideal) (dotAll (V c main_v28) (V c main_arg8)) := by
  show (cfg3.win 2).cut (grid3.coords t) ((dat3 V c).after 2 t) = _
  rw [after3_2]
  unfold out3_2
  rw [View.canon_unit_zero hz2]
  simp only [View.ld_unit_zero (S := S10000x128) hz2, View.ld_unit_zero (S := S128x128) hz2]
  rw [pay3_eq, pay_dot]
  obtain ⟨e0a, e0b, e1a, e1b, eoa, eob⟩ := idx_facts3 t
  funext j
  show dotTile (iblk3 V c 0 t) (iblk3 V c 1 t) j = dotAll (V c main_v28) (V c main_arg8) (((cfg3.win 2).blk t).view.emb j)
  unfold dotTile dotAll
  have x0 : ∀ k : Fin 128, (((cfg3.win 0).blk t).view.emb (rowAt j k)) = nodeRow (((cfg3.win 2).blk t).view.emb j) k := fun k => by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * k.val = k.val; omega
  have h0 : ∀ k : Fin 128, iblk3 V c 0 t (rowAt j k) = V c main_v28 (nodeRow (((cfg3.win 2).blk t).view.emb j) k) := fun k =>
    show V c main_v28 (((cfg3.win 0).blk t).view.emb (rowAt j k)) = _ from by rw [x0 k]
  have x1 : ∀ k : Fin 128, (((cfg3.win 1).blk t).view.emb (colAt j k)) = weightCol (((cfg3.win 2).blk t).view.emb j) k := fun k => by
    funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  have h1 : ∀ k : Fin 128, iblk3 V c 1 t (colAt j k) = V c main_arg8 (weightCol (((cfg3.win 2).blk t).view.emb j) k) := fun k =>
    show V c main_arg8 (((cfg3.win 1).blk t).view.emb (colAt j k)) = _ from by rw [x1 k]
  simp only [h0, h1]

/-- An entry of the array is in tile `t` iff each coordinate is in the tile's range. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v43).slice (win3_2.rect t)).set ↔ _
  rw [View.set_slice_whole, Rect.mem_set_unit]
  exact Iff.rfl

/-- The ten tiles cover the array: node `n` is in tile `n / 10000`. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 10 := N_3
  refine ⟨⟨(i 0).val / 10000, by show _ < grid3.N; omega⟩, flush3_2 _, ?_⟩
  rw [mem_blk3]
  obtain ⟨e0a, e0b, e1a, e1b, eoa, eob⟩ := idx_facts3 ⟨(i 0).val / 10000, by show _ < grid3.N; omega⟩
  intro a
  match a with
  | ⟨0, _⟩ =>
    show win3_2.index _ (0 : Fin 2) * 10000 ≤ (i 0).val ∧ (i 0).val < win3_2.index _ (0 : Fin 2) * 10000 + 10000
    rw [eoa]; show (i 0).val / 10000 * 10000 ≤ (i 0).val ∧ (i 0).val < (i 0).val / 10000 * 10000 + 10000; omega
  | ⟨1, _⟩ =>
    show win3_2.index _ (1 : Fin 2) * 128 ≤ (i 1).val ∧ (i 1).val < win3_2.index _ (1 : Fin 2) * 128 + 128
    rw [eob]; omega

/-- The array after the region. -/
theorem final3 (c : Dev nD) : (dat3 V c).arrAt 2 cfg3.N = dotAll (V c main_v28) (V c main_arg8) :=
  (dat3 V c).arrAt_eq_of_cover 2 _ (fun t _ => flushed3 V c t) (cover3)

/-! ## Region 7: what the array `main_v60` holds after it -/

theorem pay7_eq : @k7_pay1 = @k2_pay1 := rfl
/-- Where each window's block sits at grid point `t`: a node tile is rows 10000·t … 10000·t + 9999, a weight or bias is whole. -/
theorem idx_facts7 : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = t.val
    ∧ win7_2.index t (1 : Fin 2) = 0 :=
  (by decide +kernel : ∀ t : Fin grid7.N, _)

set_option maxHeartbeats 4000000 in
/-- What grid point `t` writes back is tile `t` of the whole-array function of the arrays the region was entered with. -/
theorem flushed7 (c : Dev nD) (t : Fin cfg7.N) :
    (dat7 V c).flushed 2 t = ((cfg7.win 2).blk t).view.read (Elt Ideal) (dotAll (V c main_v58) (V c main_arg14)) := by
  show (cfg7.win 2).cut (grid7.coords t) ((dat7 V c).after 2 t) = _
  rw [after7_2]
  unfold out7_2
  rw [View.canon_unit_zero hz2]
  simp only [View.ld_unit_zero (S := S10000x128) hz2, View.ld_unit_zero (S := S128x128) hz2]
  rw [pay7_eq, pay_dot]
  obtain ⟨e0a, e0b, e1a, e1b, eoa, eob⟩ := idx_facts7 t
  funext j
  show dotTile (iblk7 V c 0 t) (iblk7 V c 1 t) j = dotAll (V c main_v58) (V c main_arg14) (((cfg7.win 2).blk t).view.emb j)
  unfold dotTile dotAll
  have x0 : ∀ k : Fin 128, (((cfg7.win 0).blk t).view.emb (rowAt j k)) = nodeRow (((cfg7.win 2).blk t).view.emb j) k := fun k => by
    funext a; apply Fin.ext
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 128 + 1 * k.val = k.val; omega
  have h0 : ∀ k : Fin 128, iblk7 V c 0 t (rowAt j k) = V c main_v58 (nodeRow (((cfg7.win 2).blk t).view.emb j) k) := fun k =>
    show V c main_v58 (((cfg7.win 0).blk t).view.emb (rowAt j k)) = _ from by rw [x0 k]
  have x1 : ∀ k : Fin 128, (((cfg7.win 1).blk t).view.emb (colAt j k)) = weightCol (((cfg7.win 2).blk t).view.emb j) k := fun k => by
    funext a; apply Fin.ext
    match a with
    | ⟨0, _⟩ => show win7_1.index t (0 : Fin 2) * 128 + 1 * k.val = k.val; omega
    | ⟨1, _⟩ => show win7_1.index t (1 : Fin 2) * 128 + 1 * (j 1).val = win7_2.index t (1 : Fin 2) * 128 + 1 * (j 1).val; omega
  have h1 : ∀ k : Fin 128, iblk7 V c 1 t (colAt j k) = V c main_arg14 (weightCol (((cfg7.win 2).blk t).view.emb j) k) := fun k =>
    show V c main_arg14 (((cfg7.win 1).blk t).view.emb (colAt j k)) = _ from by rw [x1 k]
  simp only [h0, h1]

/-- An entry of the array is in tile `t` iff each coordinate is in the tile's range. -/
theorem mem_blk7 (t : Fin cfg7.N) (i : S100000x128.Idx) :
    i ∈ ((cfg7.win 2).blk t).view.set ↔ ∀ a : Fin 2, win7_2.index t a * S10000x128.size a ≤ (i a).val ∧ (i a).val < win7_2.index t a * S10000x128.size a + S10000x128.size a := by
  show i ∈ ((View.whole main_v60).slice (win7_2.rect t)).set ↔ _
  rw [View.set_slice_whole, Rect.mem_set_unit]
  exact Iff.rfl

/-- The ten tiles cover the array: node `n` is in tile `n / 10000`. -/
theorem cover7 (i : S100000x128.Idx) : ∃ t : Fin cfg7.N, (cfg7.win 2).flush t = true ∧ i ∈ ((cfg7.win 2).blk t).view.set := by
  have hi0 : (i 0).val < 100000 := (i 0).isLt
  have hi1 : (i 1).val < 128 := (i 1).isLt
  have hN : grid7.N = 10 := N_7
  refine ⟨⟨(i 0).val / 10000, by show _ < grid7.N; omega⟩, flush7_2 _, ?_⟩
  rw [mem_blk7]
  obtain ⟨e0a, e0b, e1a, e1b, eoa, eob⟩ := idx_facts7 ⟨(i 0).val / 10000, by show _ < grid7.N; omega⟩
  intro a
  match a with
  | ⟨0, _⟩ =>
    show win7_2.index _ (0 : Fin 2) * 10000 ≤ (i 0).val ∧ (i 0).val < win7_2.index _ (0 : Fin 2) * 10000 + 10000
    rw [eoa]; show (i 0).val / 10000 * 10000 ≤ (i 0).val ∧ (i 0).val < (i 0).val / 10000 * 10000 + 10000; omega
  | ⟨1, _⟩ =>
    show win7_2.index _ (1 : Fin 2) * 128 ≤ (i 1).val ∧ (i 1).val < win7_2.index _ (1 : Fin 2) * 128 + 128
    rw [eob]; omega

/-- The array after the region. -/
theorem final7 (c : Dev nD) : (dat7 V c).arrAt 2 cfg7.N = dotAll (V c main_v58) (V c main_arg14) :=
  (dat7 V c).arrAt_eq_of_cover 2 _ (fun t _ => flushed7 V c t) (cover7)

/-! ## Region 8: what the array `main_v74` holds after it -/

theorem pay8_eq : @k8_pay1 = @k2_pay1 := rfl
/-- Where each window's block sits at grid point `t`: a node tile is rows 10000·t … 10000·t + 9999, a weight or bias is whole. -/
theorem idx_facts8 : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = t.val
    ∧ win8_2.index t (1 : Fin 2) = 0 :=
  (by decide +kernel : ∀ t : Fin grid8.N, _)

set_option maxHeartbeats 4000000 in
/-- What grid point `t` writes back is tile `t` of the whole-array function of the arrays the region was entered with. -/
theorem flushed8 (c : Dev nD) (t : Fin cfg8.N) :
    (dat8 V c).flushed 2 t = ((cfg8.win 2).blk t).view.read (Elt Ideal) (dotAll (V c main_v59) (V c main_arg16)) := by
  show (cfg8.win 2).cut (grid8.coords t) ((dat8 V c).after 2 t) = _
  rw [after8_2]
  unfold out8_2
  rw [View.canon_unit_zero hz2]
  simp only [View.ld_unit_zero (S := S10000x128) hz2, View.ld_unit_zero (S := S128x128) hz2]
  rw [pay8_eq, pay_dot]
  obtain ⟨e0a, e0b, e1a, e1b, eoa, eob⟩ := idx_facts8 t
  funext j
  show dotTile (iblk8 V c 0 t) (iblk8 V c 1 t) j = dotAll (V c main_v59) (V c main_arg16) (((cfg8.win 2).blk t).view.emb j)
  unfold dotTile dotAll
  have x0 : ∀ k : Fin 128, (((cfg8.win 0).blk t).view.emb (rowAt j k)) = nodeRow (((cfg8.win 2).blk t).view.emb j) k := fun k => by
    funext a; apply Fin.ext
    match a with
    | ⟨0, _⟩ => show win8_0.index t (0 : Fin 2) * 10000 + 1 * (j 0).val = win8_2.index t (0 : Fin 2) * 10000 + 1 * (j 0).val; omega
    | ⟨1, _⟩ => show win8_0.index t (1 : Fin 2) * 128 + 1 * k.val = k.val; omega
  have h0 : ∀ k : Fin 128, iblk8 V c 0 t (rowAt j k) = V c main_v59 (nodeRow (((cfg8.win 2).blk t).view.emb j) k) := fun k =>
    show V c main_v59 (((cfg8.win 0).blk t).view.emb (rowAt j k)) = _ from by rw [x0 k]
  have x1 : ∀ k : Fin 128, (((cfg8.win 1).blk t).view.emb (colAt j k)) = weightCol (((cfg8.win 2).blk t).view.emb j) k := fun k => by
    funext a; apply Fin.ext
    match a with
    | ⟨0, _⟩ => show win8_1.index t (0 : Fin 2) * 128 + 1 * k.val = k.val; omega
    | ⟨1, _⟩ => show win8_1.index t (1 : Fin 2) * 128 + 1 * (j 1).val = win8_2.index t (1 : Fin 2) * 128 + 1 * (j 1).val; omega
  have h1 : ∀ k : Fin 128, iblk8 V c 1 t (colAt j k) = V c main_arg16 (weightCol (((cfg8.win 2).blk t).view.emb j) k) := fun k =>
    show V c main_arg16 (((cfg8.win 1).blk t).view.emb (colAt j k)) = _ from by rw [x1 k]
  simp only [h0, h1]

/-- An entry of the array is in tile `t` iff each coordinate is in the tile's range. -/
theorem mem_blk8 (t : Fin cfg8.N) (i : S100000x128.Idx) :
    i ∈ ((cfg8.win 2).blk t).view.set ↔ ∀ a : Fin 2, win8_2.index t a * S10000x128.size a ≤ (i a).val ∧ (i a).val < win8_2.index t a * S10000x128.size a + S10000x128.size a := by
  show i ∈ ((View.whole main_v74).slice (win8_2.rect t)).set ↔ _
  rw [View.set_slice_whole, Rect.mem_set_unit]
  exact Iff.rfl

/-- The ten tiles cover the array: node `n` is in tile `n / 10000`. -/
theorem cover8 (i : S100000x128.Idx) : ∃ t : Fin cfg8.N, (cfg8.win 2).flush t = true ∧ i ∈ ((cfg8.win 2).blk t).view.set := by
  have hi0 : (i 0).val < 100000 := (i 0).isLt
  have hi1 : (i 1).val < 128 := (i 1).isLt
  have hN : grid8.N = 10 := N_8
  refine ⟨⟨(i 0).val / 10000, by show _ < grid8.N; omega⟩, flush8_2 _, ?_⟩
  rw [mem_blk8]
  obtain ⟨e0a, e0b, e1a, e1b, eoa, eob⟩ := idx_facts8 ⟨(i 0).val / 10000, by show _ < grid8.N; omega⟩
  intro a
  match a with
  | ⟨0, _⟩ =>
    show win8_2.index _ (0 : Fin 2) * 10000 ≤ (i 0).val ∧ (i 0).val < win8_2.index _ (0 : Fin 2) * 10000 + 10000
    rw [eoa]; show (i 0).val / 10000 * 10000 ≤ (i 0).val ∧ (i 0).val < (i 0).val / 10000 * 10000 + 10000; omega
  | ⟨1, _⟩ =>
    show win8_2.index _ (1 : Fin 2) * 128 ≤ (i 1).val ∧ (i 1).val < win8_2.index _ (1 : Fin 2) * 128 + 128
    rw [eob]; omega

/-- The array after the region. -/
theorem final8 (c : Dev nD) : (dat8 V c).arrAt 2 cfg8.N = dotAll (V c main_v59) (V c main_arg16) :=
  (dat8 V c).arrAt_eq_of_cover 2 _ (fun t _ => flushed8 V c t) (cover8)

end Cert.Gcn.Dot

end
-- ==== Proof.RegionsMerge.lean ====
/-
  The two merge regions (one per cell): tile t of the two aggregated arrays, each with its bias row added to every
  row, combined as first + first + second; pointwise, so tile t of the whole-array merge. The tiles cover the array.
-/
import proofs.«163266_j14061722927669_1_alg».proof.Proof.Gen.KernelIdeal.Frame
import proofs.«163266_j14061722927669_1_alg».proof.Proof.Tiles
import proofs.«163266_j14061722927669_1_alg».proof.Proof.Spec
import Idealize.ShloMosaic.Lib.Pipeline.Value

set_option maxRecDepth 16384

noncomputable section

namespace Cert.Gcn.Merge

open Cert.KernelIdeal Cert.KernelIdeal.Gen Cert.Gcn Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-! ## Region 4: what the array `main_v57` holds after it -/

/-- Where each window's block sits at grid point `t`: a node tile is rows 10000·t … 10000·t + 9999, a weight or bias is whole. -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 1) = 0
    ∧ win4_3.index t (0 : Fin 1) = 0
    ∧ win4_4.index t (0 : Fin 2) = t.val
    ∧ win4_4.index t (1 : Fin 2) = 0 :=
  (by decide +kernel : ∀ t : Fin grid4.N, _)

set_option maxHeartbeats 4000000 in
/-- What grid point `t` writes back is tile `t` of the whole-array function of the arrays the region was entered with. -/
theorem flushed4 (c : Dev nD) (t : Fin cfg4.N) :
    (dat4 V c).flushed 4 t = ((cfg4.win 4).blk t).view.read (Elt Ideal) (mergeAll (V c main_v42) (V c main_arg7) (V c main_v56) (V c main_arg9)) := by
  show (cfg4.win 4).cut (grid4.coords t) ((dat4 V c).after 4 t) = _
  rw [after4_4]
  unfold out4_4
  rw [View.canon_unit_zero hz2]
  simp only [View.ld_unit_zero (S := S10000x128) hz2, View.ld_unit_zero (S := S128) hz1]
  rw [pay_merge]
  obtain ⟨e0a, e0b, e1a, e1b, e2a, e3a, eoa, eob⟩ := idx_facts4 t
  funext j
  show mergeTile (iblk4 V c 0 t) (iblk4 V c 2 t) (iblk4 V c 1 t) (iblk4 V c 3 t) j = mergeAll (V c main_v42) (V c main_arg7) (V c main_v56) (V c main_arg9) (((cfg4.win 4).blk t).view.emb j)
  unfold mergeTile mergeAll
  have x0 : (((cfg4.win 0).blk t).view.emb j) = (((cfg4.win 4).blk t).view.emb j) := by
    funext a; apply Fin.ext
    match a with
    | ⟨0, _⟩ => show win4_0.index t (0 : Fin 2) * 10000 + 1 * (j 0).val = win4_4.index t (0 : Fin 2) * 10000 + 1 * (j 0).val; omega
    | ⟨1, _⟩ => show win4_0.index t (1 : Fin 2) * 128 + 1 * (j 1).val = win4_4.index t (1 : Fin 2) * 128 + 1 * (j 1).val; omega
  have h0 : iblk4 V c 0 t j = V c main_v42 (((cfg4.win 4).blk t).view.emb j) :=
    show V c main_v42 (((cfg4.win 0).blk t).view.emb j) = _ from by rw [x0]
  have x1 : (((cfg4.win 1).blk t).view.emb j) = (((cfg4.win 4).blk t).view.emb j) := by
    funext a; apply Fin.ext
    match a with
    | ⟨0, _⟩ => show win4_1.index t (0 : Fin 2) * 10000 + 1 * (j 0).val = win4_4.index t (0 : Fin 2) * 10000 + 1 * (j 0).val; omega
    | ⟨1, _⟩ => show win4_1.index t (1 : Fin 2) * 128 + 1 * (j 1).val = win4_4.index t (1 : Fin 2) * 128 + 1 * (j 1).val; omega
  have h1 : iblk4 V c 1 t j = V c main_v56 (((cfg4.win 4).blk t).view.emb j) :=
    show V c main_v56 (((cfg4.win 1).blk t).view.emb j) = _ from by rw [x1]
  have x2 : (((cfg4.win 2).blk t).view.emb (laneAt j)) = biasLane (((cfg4.win 4).blk t).view.emb j) := by
    funext a; apply Fin.ext
    match a with
    | ⟨0, _⟩ => show win4_2.index t (0 : Fin 1) * 128 + 1 * (j 1).val = win4_4.index t (1 : Fin 2) * 128 + 1 * (j 1).val; omega
  have h2 : iblk4 V c 2 t (laneAt j) = V c main_arg7 (biasLane (((cfg4.win 4).blk t).view.emb j)) :=
    show V c main_arg7 (((cfg4.win 2).blk t).view.emb (laneAt j)) = _ from by rw [x2]
  have x3 : (((cfg4.win 3).blk t).view.emb (laneAt j)) = biasLane (((cfg4.win 4).blk t).view.emb j) := by
    funext a; apply Fin.ext
    match a with
    | ⟨0, _⟩ => show win4_3.index t (0 : Fin 1) * 128 + 1 * (j 1).val = win4_4.index t (1 : Fin 2) * 128 + 1 * (j 1).val; omega
  have h3 : iblk4 V c 3 t (laneAt j) = V c main_arg9 (biasLane (((cfg4.win 4).blk t).view.emb j)) :=
    show V c main_arg9 (((cfg4.win 3).blk t).view.emb (laneAt j)) = _ from by rw [x3]
  simp only [h0, h1, h2, h3]

/-- An entry of the array is in tile `t` iff each coordinate is in the tile's range. -/
theorem mem_blk4 (t : Fin cfg4.N) (i : S100000x128.Idx) :
    i ∈ ((cfg4.win 4).blk t).view.set ↔ ∀ a : Fin 2, win4_4.index t a * S10000x128.size a ≤ (i a).val ∧ (i a).val < win4_4.index t a * S10000x128.size a + S10000x128.size a := by
  show i ∈ ((View.whole main_v57).slice (win4_4.rect t)).set ↔ _
  rw [View.set_slice_whole, Rect.mem_set_unit]
  exact Iff.rfl

/-- The ten tiles cover the array: node `n` is in tile `n / 10000`. -/
theorem cover4 (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  have hN : grid4.N = 10 := N_4
  refine ⟨⟨(i 0).val / 10000, by show _ < grid4.N; omega⟩, flush4_4 _, ?_⟩
  rw [mem_blk4]
  obtain ⟨e0a, e0b, e1a, e1b, e2a, e3a, eoa, eob⟩ := idx_facts4 ⟨(i 0).val / 10000, by show _ < grid4.N; omega⟩
  intro a
  match a with
  | ⟨0, _⟩ =>
    show win4_4.index _ (0 : Fin 2) * 10000 ≤ (i 0).val ∧ (i 0).val < win4_4.index _ (0 : Fin 2) * 10000 + 10000
    rw [eoa]; show (i 0).val / 10000 * 10000 ≤ (i 0).val ∧ (i 0).val < (i 0).val / 10000 * 10000 + 10000; omega
  | ⟨1, _⟩ =>
    show win4_4.index _ (1 : Fin 2) * 128 ≤ (i 1).val ∧ (i 1).val < win4_4.index _ (1 : Fin 2) * 128 + 128
    rw [eob]; omega

/-- The array after the region. -/
theorem final4 (c : Dev nD) : (dat4 V c).arrAt 4 cfg4.N = mergeAll (V c main_v42) (V c main_arg7) (V c main_v56) (V c main_arg9) :=
  (dat4 V c).arrAt_eq_of_cover 4 _ (fun t _ => flushed4 V c t) (cover4)

/-! ## Region 9: what the array `main_v88` holds after it -/

theorem pay9_eq : @k9_pay1 = @k4_pay1 := rfl
/-- Where each window's block sits at grid point `t`: a node tile is rows 10000·t … 10000·t + 9999, a weight or bias is whole. -/
theorem idx_facts9 : ∀ t : Fin cfg9.N, win9_0.index t (0 : Fin 2) = t.val
    ∧ win9_0.index t (1 : Fin 2) = 0
    ∧ win9_1.index t (0 : Fin 2) = t.val
    ∧ win9_1.index t (1 : Fin 2) = 0
    ∧ win9_2.index t (0 : Fin 1) = 0
    ∧ win9_3.index t (0 : Fin 1) = 0
    ∧ win9_4.index t (0 : Fin 2) = t.val
    ∧ win9_4.index t (1 : Fin 2) = 0 :=
  (by decide +kernel : ∀ t : Fin grid9.N, _)

set_option maxHeartbeats 4000000 in
/-- What grid point `t` writes back is tile `t` of the whole-array function of the arrays the region was entered with. -/
theorem flushed9 (c : Dev nD) (t : Fin cfg9.N) :
    (dat9 V c).flushed 4 t = ((cfg9.win 4).blk t).view.read (Elt Ideal) (mergeAll (V c main_v73) (V c main_arg15) (V c main_v87) (V c main_arg17)) := by
  show (cfg9.win 4).cut (grid9.coords t) ((dat9 V c).after 4 t) = _
  rw [after9_4]
  unfold out9_4
  rw [View.canon_unit_zero hz2]
  simp only [View.ld_unit_zero (S := S10000x128) hz2, View.ld_unit_zero (S := S128) hz1]
  rw [pay9_eq, pay_merge]
  obtain ⟨e0a, e0b, e1a, e1b, e2a, e3a, eoa, eob⟩ := idx_facts9 t
  funext j
  show mergeTile (iblk9 V c 0 t) (iblk9 V c 2 t) (iblk9 V c 1 t) (iblk9 V c 3 t) j = mergeAll (V c main_v73) (V c main_arg15) (V c main_v87) (V c main_arg17) (((cfg9.win 4).blk t).view.emb j)
  unfold mergeTile mergeAll
  have x0 : (((cfg9.win 0).blk t).view.emb j) = (((cfg9.win 4).blk t).view.emb j) := by
    funext a; apply Fin.ext
    match a with
    | ⟨0, _⟩ => show win9_0.index t (0 : Fin 2) * 10000 + 1 * (j 0).val = win9_4.index t (0 : Fin 2) * 10000 + 1 * (j 0).val; omega
    | ⟨1, _⟩ => show win9_0.index t (1 : Fin 2) * 128 + 1 * (j 1).val = win9_4.index t (1 : Fin 2) * 128 + 1 * (j 1).val; omega
  have h0 : iblk9 V c 0 t j = V c main_v73 (((cfg9.win 4).blk t).view.emb j) :=
    show V c main_v73 (((cfg9.win 0).blk t).view.emb j) = _ from by rw [x0]
  have x1 : (((cfg9.win 1).blk t).view.emb j) = (((cfg9.win 4).blk t).view.emb j) := by
    funext a; apply Fin.ext
    match a with
    | ⟨0, _⟩ => show win9_1.index t (0 : Fin 2) * 10000 + 1 * (j 0).val = win9_4.index t (0 : Fin 2) * 10000 + 1 * (j 0).val; omega
    | ⟨1, _⟩ => show win9_1.index t (1 : Fin 2) * 128 + 1 * (j 1).val = win9_4.index t (1 : Fin 2) * 128 + 1 * (j 1).val; omega
  have h1 : iblk9 V c 1 t j = V c main_v87 (((cfg9.win 4).blk t).view.emb j) :=
    show V c main_v87 (((cfg9.win 1).blk t).view.emb j) = _ from by rw [x1]
  have x2 : (((cfg9.win 2).blk t).view.emb (laneAt j)) = biasLane (((cfg9.win 4).blk t).view.emb j) := by
    funext a; apply Fin.ext
    match a with
    | ⟨0, _⟩ => show win9_2.index t (0 : Fin 1) * 128 + 1 * (j 1).val = win9_4.index t (1 : Fin 2) * 128 + 1 * (j 1).val; omega
  have h2 : iblk9 V c 2 t (laneAt j) = V c main_arg15 (biasLane (((cfg9.win 4).blk t).view.emb j)) :=
    show V c main_arg15 (((cfg9.win 2).blk t).view.emb (laneAt j)) = _ from by rw [x2]
  have x3 : (((cfg9.win 3).blk t).view.emb (laneAt j)) = biasLane (((cfg9.win 4).blk t).view.emb j) := by
    funext a; apply Fin.ext
    match a with
    | ⟨0, _⟩ => show win9_3.index t (0 : Fin 1) * 128 + 1 * (j 1).val = win9_4.index t (1 : Fin 2) * 128 + 1 * (j 1).val; omega
  have h3 : iblk9 V c 3 t (laneAt j) = V c main_arg17 (biasLane (((cfg9.win 4).blk t).view.emb j)) :=
    show V c main_arg17 (((cfg9.win 3).blk t).view.emb (laneAt j)) = _ from by rw [x3]
  simp only [h0, h1, h2, h3]

/-- An entry of the array is in tile `t` iff each coordinate is in the tile's range. -/
theorem mem_blk9 (t : Fin cfg9.N) (i : S100000x128.Idx) :
    i ∈ ((cfg9.win 4).blk t).view.set ↔ ∀ a : Fin 2, win9_4.index t a * S10000x128.size a ≤ (i a).val ∧ (i a).val < win9_4.index t a * S10000x128.size a + S10000x128.size a := by
  show i ∈ ((View.whole main_v88).slice (win9_4.rect t)).set ↔ _
  rw [View.set_slice_whole, Rect.mem_set_unit]
  exact Iff.rfl

/-- The ten tiles cover the array: node `n` is in tile `n / 10000`. -/
theorem cover9 (i : S100000x128.Idx) : ∃ t : Fin cfg9.N, (cfg9.win 4).flush t = true ∧ i ∈ ((cfg9.win 4).blk t).view.set := by
  have hi0 : (i 0).val < 100000 := (i 0).isLt
  have hi1 : (i 1).val < 128 := (i 1).isLt
  have hN : grid9.N = 10 := N_9
  refine ⟨⟨(i 0).val / 10000, by show _ < grid9.N; omega⟩, flush9_4 _, ?_⟩
  rw [mem_blk9]
  obtain ⟨e0a, e0b, e1a, e1b, e2a, e3a, eoa, eob⟩ := idx_facts9 ⟨(i 0).val / 10000, by show _ < grid9.N; omega⟩
  intro a
  match a with
  | ⟨0, _⟩ =>
    show win9_4.index _ (0 : Fin 2) * 10000 ≤ (i 0).val ∧ (i 0).val < win9_4.index _ (0 : Fin 2) * 10000 + 10000
    rw [eoa]; show (i 0).val / 10000 * 10000 ≤ (i 0).val ∧ (i 0).val < (i 0).val / 10000 * 10000 + 10000; omega
  | ⟨1, _⟩ =>
    show win9_4.index _ (1 : Fin 2) * 128 ≤ (i 1).val ∧ (i 1).val < win9_4.index _ (1 : Fin 2) * 128 + 128
    rw [eob]; omega

/-- The array after the region. -/
theorem final9 (c : Dev nD) : (dat9 V c).arrAt 4 cfg9.N = mergeAll (V c main_v73) (V c main_arg15) (V c main_v87) (V c main_arg17) :=
  (dat9 V c).arrAt_eq_of_cover 4 _ (fun t _ => flushed9 V c t) (cover9)

end Cert.Gcn.Merge

end
-- ==== Proof.Net.lean ====
/-
  The network both programs compute, as one function of the twenty arguments, and the reference's stages read as it.

  Graph data (computed once from the edge list): the source and destination node of each of the 1700000 edges
  (the given edges followed by one self-loop per node) and the edge weight norm = dinv[src]·dinv[dst], dinv the inverse
  square root of the in-degree. One aggregation sends a node array H to the array whose row n is the sum over the
  edges e with dst e = n of norm e · H[src e] (a gather, a scale, a scatter-add into zeros). A cell is
  merge (aggregate ((X0·Wp0 + bp0)·Wg0), bg0, aggregate ((X1·Wp1 + bp1)·Wg1), bg1); the network is the classifier
  applied to cell (x, cell (x, x)). The reference's printed stages are this function: each dense stage is read entry
  by entry (its generated read-at-an-index lemmas) and meets the whole-array step of Spec.lean; the graph stages are
  the same operations on both sides and are never opened.
-/
import proofs.«163266_j14061722927669_1_alg».proof.Proof.Gen.ReferenceIdeal.Read
import proofs.«163266_j14061722927669_1_alg».proof.Proof.Spec

noncomputable section

namespace Cert.Gcn

open Cert.ReferenceIdeal Cert.ReferenceIdeal.Gen Cert.ReferenceIdeal.Read Idealize.ShloMosaic Idealize.ShloMosaic.TcCoe

/-- One graph aggregation of the node array `H`: gather the rows `H[src e]` (a negative index wrapped by 100000
    first), scale row `e` by `norm e`, scatter-add row `e` into row `dst e` of zeros. -/
def aggregate (H : (⟨S100000x128, .f32⟩ : BufTy).Contents (Elt Ideal)) (src dst : (⟨S1700000, .i32⟩ : BufTy).Contents (Elt Ideal)) (norm : (⟨S1700000, .f32⟩ : BufTy).Contents (Elt Ideal)) : (⟨S100000x128, .f32⟩ : BufTy).Contents (Elt Ideal) :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf (Host.gather gather_S100000x128_S1700000x1_S1700000x128_1_0_n_n_0_1_1128 H
            (broadcastInDim S1700000x1 ![0] bcast_S1700000_S1700000x1_0
              (select (cmpi .slt src (broadcastInDim S1700000 ![] bcast_S_S1700000 (constantI S_ 32 0#32)))
                (addi src (broadcastInDim S1700000 ![] bcast_S_S1700000 (constantI S_ 32 100000#32))) src)))
          (broadcastInDim S1700000x128 ![0, 1] bcast_S1700000x1_S1700000x128_0_1
            (broadcastInDim S1700000x1 ![0] bcast_S1700000_S1700000x1_0 norm)))

/-- One cell: two affine steps, two transformed aggregations, the merge. -/
def cell (X0 X1 : (⟨S100000x128, .f32⟩ : BufTy).Contents (Elt Ideal)) (wp0 : (⟨S128x128, .f32⟩ : BufTy).Contents (Elt Ideal)) (bp0 : (⟨S128, .f32⟩ : BufTy).Contents (Elt Ideal)) (wp1 : (⟨S128x128, .f32⟩ : BufTy).Contents (Elt Ideal)) (bp1 : (⟨S128, .f32⟩ : BufTy).Contents (Elt Ideal))
    (wg0 : (⟨S128x128, .f32⟩ : BufTy).Contents (Elt Ideal)) (bg0 : (⟨S128, .f32⟩ : BufTy).Contents (Elt Ideal)) (wg1 : (⟨S128x128, .f32⟩ : BufTy).Contents (Elt Ideal)) (bg1 : (⟨S128, .f32⟩ : BufTy).Contents (Elt Ideal)) (src dst : (⟨S1700000, .i32⟩ : BufTy).Contents (Elt Ideal)) (norm : (⟨S1700000, .f32⟩ : BufTy).Contents (Elt Ideal)) : (⟨S100000x128, .f32⟩ : BufTy).Contents (Elt Ideal) :=
  mergeAll (aggregate (dotAll (affineAll X0 wp0 bp0) wg0) src dst norm) bg0
    (aggregate (dotAll (affineAll X1 wp1 bp1) wg1) src dst norm) bg1

/-- The whole network. -/
def net (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128x128, .f32⟩ : BufTy).Contents (Elt Ideal)) (a9 : (⟨S128, .f32⟩ : BufTy).Contents (Elt Ideal))
    (a10 : (⟨S128x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (a14 : (⟨S128x128, .f32⟩ : BufTy).Contents (Elt Ideal)) (a15 : (⟨S128, .f32⟩ : BufTy).Contents (Elt Ideal)) (a16 : (⟨S128x128, .f32⟩ : BufTy).Contents (Elt Ideal)) (a17 : (⟨S128, .f32⟩ : BufTy).Contents (Elt Ideal))
    (a18 : (⟨S128x40, .f32⟩ : BufTy).Contents (Elt Ideal)) (a19 : (⟨S40, .f32⟩ : BufTy).Contents (Elt Ideal)) : (⟨S100000x40, .f32⟩ : BufTy).Contents (Elt Ideal) :=
  affineAllC
    (cell a0 (cell a0 a0 a2 a3 a4 a5 a6 a7 a8 a9 (val_main_v3 a1) (val_main_v6 a1) (val_main_v26 a1))
      a10 a11 a12 a13 a14 a15 a16 a17 (val_main_v3 a1) (val_main_v6 a1) (val_main_v26 a1))
    a18 a19

/-! ## The reference's dense stages are the whole-array steps -/

/-- The host's product of a node array with a [128, 128] weight, entry by entry. -/
theorem ref_dot (H : (⟨S100000x128, .f32⟩ : BufTy).Contents (Elt Ideal)) (W : (⟨S128x128, .f32⟩ : BufTy).Contents (Elt Ideal)) : val_main_v27 (F := Ideal) H W = dotAll H W := by
  funext i
  rw [val_main_v27_apply]
  rfl

/-- Product plus the bias vector laid as a row and repeated down the nodes. -/
theorem ref_affine (H : (⟨S100000x128, .f32⟩ : BufTy).Contents (Elt Ideal)) (W : (⟨S128x128, .f32⟩ : BufTy).Contents (Elt Ideal)) (b : (⟨S128, .f32⟩ : BufTy).Contents (Elt Ideal)) : val_main_v30 (F := Ideal) H W b = affineAll H W b := by
  funext i
  rw [val_main_v30_apply, val_main_v27_apply, val_main_v29_apply, val_main_v28_apply]
  rfl

/-- The bias row repeated down the nodes, at an entry. -/
theorem ref_bias (b : (⟨S128, .f32⟩ : BufTy).Contents (Elt Ideal)) (i : S100000x128.Idx) : val_main_v50 (F := Ideal) b i = b (biasLane i) := by
  rw [val_main_v50_apply, val_main_v49_apply]
  rfl

/-- The merge of two aggregated arrays. -/
theorem ref_merge (S0 : (⟨S100000x128, .f32⟩ : BufTy).Contents (Elt Ideal)) (b0 : (⟨S128, .f32⟩ : BufTy).Contents (Elt Ideal)) (S1 : (⟨S100000x128, .f32⟩ : BufTy).Contents (Elt Ideal)) (b1 : (⟨S128, .f32⟩ : BufTy).Contents (Elt Ideal)) :
    (addf (addf (addf S0 (val_main_v50 (F := Ideal) b0)) (addf S0 (val_main_v50 (F := Ideal) b0))) (addf S1 (val_main_v50 (F := Ideal) b1))
      : FVec Ideal S100000x128 .f32) = mergeAll S0 b0 S1 b1 := by
  funext i
  show ((S0 i + val_main_v50 (F := Ideal) b0 i) + (S0 i + val_main_v50 (F := Ideal) b0 i)) + (S1 i + val_main_v50 (F := Ideal) b1 i) = _
  rw [ref_bias, ref_bias]
  rfl

/-! ## The reference's result is the network -/

variable (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128x128, .f32⟩ : BufTy).Contents (Elt Ideal)) (a9 : (⟨S128, .f32⟩ : BufTy).Contents (Elt Ideal))
    (a10 : (⟨S128x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (a14 : (⟨S128x128, .f32⟩ : BufTy).Contents (Elt Ideal)) (a15 : (⟨S128, .f32⟩ : BufTy).Contents (Elt Ideal)) (a16 : (⟨S128x128, .f32⟩ : BufTy).Contents (Elt Ideal)) (a17 : (⟨S128, .f32⟩ : BufTy).Contents (Elt Ideal))
    (a18 : (⟨S128x40, .f32⟩ : BufTy).Contents (Elt Ideal)) (a19 : (⟨S40, .f32⟩ : BufTy).Contents (Elt Ideal))

/-- The first cell's output (the reference's stage 70). -/
theorem ref_cell1 : val_main_v70 a0 a1 a2 a3 a4 a5 a6 a7 a8 a9
    = cell a0 a0 a2 a3 a4 a5 a6 a7 a8 a9 (val_main_v3 a1) (val_main_v6 a1) (val_main_v26 a1) := by
  show addf (addf (addf (aggregate (val_main_v27 (val_main_v30 a0 a2 a3) a6) (val_main_v3 a1) (val_main_v6 a1) (val_main_v26 a1)) (val_main_v50 a7))
        (addf (aggregate (val_main_v27 (val_main_v30 a0 a2 a3) a6) (val_main_v3 a1) (val_main_v6 a1) (val_main_v26 a1)) (val_main_v50 a7)))
      (addf (aggregate (val_main_v27 (val_main_v30 a0 a4 a5) a8) (val_main_v3 a1) (val_main_v6 a1) (val_main_v26 a1)) (val_main_v50 a9)) = _
  rw [ref_merge, ref_dot, ref_dot, ref_affine, ref_affine]
  rfl

/-- The second cell's output (the reference's stage 114), over the first's. -/
theorem ref_cell2 : val_main_v114 a0 a1 a2 a3 a4 a5 a6 a7 a8 a9 a10 a11 a12 a13 a14 a15 a16 a17
    = cell a0 (val_main_v70 a0 a1 a2 a3 a4 a5 a6 a7 a8 a9) a10 a11 a12 a13 a14 a15 a16 a17 (val_main_v3 a1) (val_main_v6 a1) (val_main_v26 a1) := by
  show addf (addf (addf (aggregate (val_main_v27 (val_main_v30 a0 a10 a11) a14) (val_main_v3 a1) (val_main_v6 a1) (val_main_v26 a1)) (val_main_v50 a15))
        (addf (aggregate (val_main_v27 (val_main_v30 a0 a10 a11) a14) (val_main_v3 a1) (val_main_v6 a1) (val_main_v26 a1)) (val_main_v50 a15)))
      (addf (aggregate (val_main_v27 (val_main_v30 (val_main_v70 a0 a1 a2 a3 a4 a5 a6 a7 a8 a9) a12 a13) a16) (val_main_v3 a1) (val_main_v6 a1) (val_main_v26 a1)) (val_main_v50 a17)) = _
  rw [ref_merge, ref_dot, ref_dot, ref_affine, ref_affine]
  rfl

/-- The classifier over the second cell, entry by entry. -/
theorem ref_net : val_main_v118 a0 a1 a2 a3 a4 a5 a6 a7 a8 a9 a10 a11 a12 a13 a14 a15 a16 a17 a18 a19
    = net a0 a1 a2 a3 a4 a5 a6 a7 a8 a9 a10 a11 a12 a13 a14 a15 a16 a17 a18 a19 := by
  unfold net
  rw [← ref_cell1, ← ref_cell2]
  funext i
  rw [val_main_v118_apply, val_main_v115_apply, val_main_v117_apply, val_main_v116_apply]
  rfl

end Cert.Gcn

end
-- ==== Proof.Walk.lean ====
/-
  The idealized kernel's sixteen segments walked from the launch to the return: what each buffer the network
  needs holds at each segment boundary, as a function of the launch contents of the arguments.
  A host stretch writes the buffers of its own operations and keeps every other; a region writes its output array
  (by its ten tiles: the Regions modules) and keeps every other, its inputs included. So an argument, and the graph
  data written by the first host stretch, are found unchanged wherever they are read, and each intermediate array is
  carried from the segment that writes it to the segment that reads it. The four aggregations are the same operations
  as the reference's and are only named, never opened.
-/
import proofs.«163266_j14061722927669_1_alg».proof.Proof.RegionsAffine
import proofs.«163266_j14061722927669_1_alg».proof.Proof.RegionsDot
import proofs.«163266_j14061722927669_1_alg».proof.Proof.RegionsMerge
import proofs.«163266_j14061722927669_1_alg».proof.Proof.Net
import Idealize.ShloMosaic.Lib.StableHlo.Run

set_option maxRecDepth 16384
-- the local notations below abbreviate terms over the section's variables
set_option quotPrecheck false

noncomputable section

namespace Cert.Gcn.Walk

open Cert.KernelIdeal Cert.KernelIdeal.Gen Cert.Gcn Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg) (c : Dev nD)

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)
local notation "A10" => m ((c.tc : Thread nD τ).loc main_arg10)
local notation "A11" => m ((c.tc : Thread nD τ).loc main_arg11)
local notation "A12" => m ((c.tc : Thread nD τ).loc main_arg12)
local notation "A13" => m ((c.tc : Thread nD τ).loc main_arg13)
local notation "A14" => m ((c.tc : Thread nD τ).loc main_arg14)
local notation "A15" => m ((c.tc : Thread nD τ).loc main_arg15)
local notation "A16" => m ((c.tc : Thread nD τ).loc main_arg16)
local notation "A17" => m ((c.tc : Thread nD τ).loc main_arg17)
local notation "A18" => m ((c.tc : Thread nD τ).loc main_arg18)
local notation "A19" => m ((c.tc : Thread nD τ).loc main_arg19)
local notation "SRC" => Cert.ReferenceIdeal.Read.val_main_v3 (F := Ideal) A1
local notation "DST" => Cert.ReferenceIdeal.Read.val_main_v6 (F := Ideal) A1
local notation "NRM" => Cert.ReferenceIdeal.Read.val_main_v26 (F := Ideal) A1
local notation "P0" => affineAll A0 A2 A3
local notation "P1" => affineAll A0 A4 A5
local notation "D0" => dotAll P0 A6
local notation "D1" => dotAll P1 A8
local notation "G0" => aggregate D0 SRC DST NRM
local notation "G1" => aggregate D1 SRC DST NRM
local notation "C1" => mergeAll G0 A7 G1 A9
local notation "Q0" => affineAll A0 A10 A11
local notation "Q1" => affineAll C1 A12 A13
local notation "E0" => dotAll Q0 A14
local notation "E1" => dotAll Q1 A16
local notation "H0" => aggregate E0 SRC DST NRM
local notation "H1" => aggregate E1 SRC DST NRM
local notation "C2" => mergeAll H0 A15 H1 A17

/-- A buffer that no operation of a host stretch writes is kept by the stretch. -/
local macro "host_keep" : tactic => `(tactic| exact StableHlo.after_of_forall_not_mem _ _ (List.forall_iff_forall_mem.mp (by
  simp only [hostOps0, hostOps3, hostOps4, hostOps8, hostOps9, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## The graph data after the first host stretch -/

theorem src_1 : V1 m ρ c main_v3 = SRC := by
  show StableHlo.after hostOps0 (W0 m ρ c) (Proc.devRef .tc main_v3) = _
  dsimp only [hostOps0]
  after_results_simp
  rfl
theorem dst_1 : V1 m ρ c main_v6 = DST := by
  show StableHlo.after hostOps0 (W0 m ρ c) (Proc.devRef .tc main_v6) = _
  dsimp only [hostOps0]
  after_results_simp
  rfl
theorem norm_1 : V1 m ρ c main_v26 = NRM := by
  show StableHlo.after hostOps0 (W0 m ρ c) (Proc.devRef .tc main_v26) = _
  dsimp only [hostOps0]
  after_results_simp
  rfl

/-! ## Region 0: the first affine step of cell 1 -/

theorem keep_arg0_1_0 : V1 m ρ c main_arg0 = A0 :=
  calc W1 m ρ c (Proc.devRef .tc main_arg0)
    _ = W0 m ρ c (Proc.devRef .tc main_arg0) := by host_keep
    _ = A0 := rfl

theorem keep_arg2_1_0 : V1 m ρ c main_arg2 = A2 :=
  calc W1 m ρ c (Proc.devRef .tc main_arg2)
    _ = W0 m ρ c (Proc.devRef .tc main_arg2) := by host_keep
    _ = A2 := rfl

theorem keep_arg3_1_0 : V1 m ρ c main_arg3 = A3 :=
  calc W1 m ρ c (Proc.devRef .tc main_arg3)
    _ = W0 m ρ c (Proc.devRef .tc main_arg3) := by host_keep
    _ = A3 := rfl

theorem val_v27_2 : V2 m ρ c main_v27 = P0 :=
  (W2_arr m ρ c 3).trans ((Affine.final0 (V1 m ρ) c).trans (by rw [keep_arg0_1_0, keep_arg2_1_0, keep_arg3_1_0]))

/-! ## Region 1: the second affine step of cell 1 -/

theorem keep_arg0_2_0 : V2 m ρ c main_arg0 = A0 :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by host_keep
    _ = A0 := rfl

theorem keep_arg4_2_0 : V2 m ρ c main_arg4 = A4 :=
  calc W2 m ρ c (Proc.devRef .tc main_arg4)
    _ = W1 m ρ c (Proc.devRef .tc main_arg4) := W2_of_ne m ρ c main_arg4 (by decide)
    _ = W0 m ρ c (Proc.devRef .tc main_arg4) := by host_keep
    _ = A4 := rfl

theorem keep_arg5_2_0 : V2 m ρ c main_arg5 = A5 :=
  calc W2 m ρ c (Proc.devRef .tc main_arg5)
    _ = W1 m ρ c (Proc.devRef .tc main_arg5) := W2_of_ne m ρ c main_arg5 (by decide)
    _ = W0 m ρ c (Proc.devRef .tc main_arg5) := by host_keep
    _ = A5 := rfl

theorem val_v28_3 : V3 m ρ c main_v28 = P1 :=
  (W3_arr m ρ c 3).trans ((Affine.final1 (V2 m ρ) c).trans (by rw [keep_arg0_2_0, keep_arg4_2_0, keep_arg5_2_0]))

/-! ## Region 2: the transform in front of the first aggregation -/

theorem keep_v27_3_2 : V3 m ρ c main_v27 = V2 m ρ c main_v27 :=
  calc W3 m ρ c (Proc.devRef .tc main_v27)
    _ = W2 m ρ c (Proc.devRef .tc main_v27) := W3_of_ne m ρ c main_v27 (by decide)

theorem keep_arg6_3_0 : V3 m ρ c main_arg6 = A6 :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := by host_keep
    _ = A6 := rfl

theorem val_v29_4 : V4 m ρ c main_v29 = D0 :=
  (W4_arr m ρ c 2).trans ((Dot.final2 (V3 m ρ) c).trans (by rw [keep_v27_3_2, val_v27_2, keep_arg6_3_0]))

/-! ## Host stretch: the first aggregation of cell 1 -/

theorem keep_v3_4_1 : V4 m ρ c main_v3 = V1 m ρ c main_v3 :=
  calc W4 m ρ c (Proc.devRef .tc main_v3)
    _ = W3 m ρ c (Proc.devRef .tc main_v3) := W4_of_ne m ρ c main_v3 (by decide)
    _ = W2 m ρ c (Proc.devRef .tc main_v3) := W3_of_ne m ρ c main_v3 (by decide)
    _ = W1 m ρ c (Proc.devRef .tc main_v3) := W2_of_ne m ρ c main_v3 (by decide)

theorem keep_v6_4_1 : V4 m ρ c main_v6 = V1 m ρ c main_v6 :=
  calc W4 m ρ c (Proc.devRef .tc main_v6)
    _ = W3 m ρ c (Proc.devRef .tc main_v6) := W4_of_ne m ρ c main_v6 (by decide)
    _ = W2 m ρ c (Proc.devRef .tc main_v6) := W3_of_ne m ρ c main_v6 (by decide)
    _ = W1 m ρ c (Proc.devRef .tc main_v6) := W2_of_ne m ρ c main_v6 (by decide)

theorem keep_v26_4_1 : V4 m ρ c main_v26 = V1 m ρ c main_v26 :=
  calc W4 m ρ c (Proc.devRef .tc main_v26)
    _ = W3 m ρ c (Proc.devRef .tc main_v26) := W4_of_ne m ρ c main_v26 (by decide)
    _ = W2 m ρ c (Proc.devRef .tc main_v26) := W3_of_ne m ρ c main_v26 (by decide)
    _ = W1 m ρ c (Proc.devRef .tc main_v26) := W2_of_ne m ρ c main_v26 (by decide)

theorem agg_v42_5 : V5 m ρ c main_v42 = aggregate (V4 m ρ c main_v29) (V4 m ρ c main_v3) (V4 m ρ c main_v6) (V4 m ρ c main_v26) := by
  show StableHlo.after hostOps3 (W4 m ρ c) (Proc.devRef .tc main_v42) = _
  dsimp only [hostOps3]
  after_results_simp
  rfl
theorem val_v42_5 : V5 m ρ c main_v42 = G0 := by
  rw [agg_v42_5, val_v29_4, keep_v3_4_1, keep_v6_4_1, keep_v26_4_1, src_1, dst_1, norm_1]

/-! ## Region 3: the transform in front of the second aggregation -/

theorem keep_v28_5_3 : V5 m ρ c main_v28 = V3 m ρ c main_v28 :=
  calc W5 m ρ c (Proc.devRef .tc main_v28)
    _ = W4 m ρ c (Proc.devRef .tc main_v28) := by host_keep
    _ = W3 m ρ c (Proc.devRef .tc main_v28) := W4_of_ne m ρ c main_v28 (by decide)

theorem keep_arg8_5_0 : V5 m ρ c main_arg8 = A8 :=
  calc W5 m ρ c (Proc.devRef .tc main_arg8)
    _ = W4 m ρ c (Proc.devRef .tc main_arg8) := by host_keep
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by host_keep
    _ = A8 := rfl

theorem val_v43_6 : V6 m ρ c main_v43 = D1 :=
  (W6_arr m ρ c 2).trans ((Dot.final3 (V5 m ρ) c).trans (by rw [keep_v28_5_3, val_v28_3, keep_arg8_5_0]))

/-! ## Host stretch: the second aggregation of cell 1 -/

theorem keep_v3_6_1 : V6 m ρ c main_v3 = V1 m ρ c main_v3 :=
  calc W6 m ρ c (Proc.devRef .tc main_v3)
    _ = W5 m ρ c (Proc.devRef .tc main_v3) := W6_of_ne m ρ c main_v3 (by decide)
    _ = W4 m ρ c (Proc.devRef .tc main_v3) := by host_keep
    _ = W3 m ρ c (Proc.devRef .tc main_v3) := W4_of_ne m ρ c main_v3 (by decide)
    _ = W2 m ρ c (Proc.devRef .tc main_v3) := W3_of_ne m ρ c main_v3 (by decide)
    _ = W1 m ρ c (Proc.devRef .tc main_v3) := W2_of_ne m ρ c main_v3 (by decide)

theorem keep_v6_6_1 : V6 m ρ c main_v6 = V1 m ρ c main_v6 :=
  calc W6 m ρ c (Proc.devRef .tc main_v6)
    _ = W5 m ρ c (Proc.devRef .tc main_v6) := W6_of_ne m ρ c main_v6 (by decide)
    _ = W4 m ρ c (Proc.devRef .tc main_v6) := by host_keep
    _ = W3 m ρ c (Proc.devRef .tc main_v6) := W4_of_ne m ρ c main_v6 (by decide)
    _ = W2 m ρ c (Proc.devRef .tc main_v6) := W3_of_ne m ρ c main_v6 (by decide)
    _ = W1 m ρ c (Proc.devRef .tc main_v6) := W2_of_ne m ρ c main_v6 (by decide)

theorem keep_v26_6_1 : V6 m ρ c main_v26 = V1 m ρ c main_v26 :=
  calc W6 m ρ c (Proc.devRef .tc main_v26)
    _ = W5 m ρ c (Proc.devRef .tc main_v26) := W6_of_ne m ρ c main_v26 (by decide)
    _ = W4 m ρ c (Proc.devRef .tc main_v26) := by host_keep
    _ = W3 m ρ c (Proc.devRef .tc main_v26) := W4_of_ne m ρ c main_v26 (by decide)
    _ = W2 m ρ c (Proc.devRef .tc main_v26) := W3_of_ne m ρ c main_v26 (by decide)
    _ = W1 m ρ c (Proc.devRef .tc main_v26) := W2_of_ne m ρ c main_v26 (by decide)

theorem agg_v56_7 : V7 m ρ c main_v56 = aggregate (V6 m ρ c main_v43) (V6 m ρ c main_v3) (V6 m ρ c main_v6) (V6 m ρ c main_v26) := by
  show StableHlo.after hostOps4 (W6 m ρ c) (Proc.devRef .tc main_v56) = _
  dsimp only [hostOps4]
  after_results_simp
  rfl
theorem val_v56_7 : V7 m ρ c main_v56 = G1 := by
  rw [agg_v56_7, val_v43_6, keep_v3_6_1, keep_v6_6_1, keep_v26_6_1, src_1, dst_1, norm_1]

/-! ## Region 4: the merge of cell 1 -/

theorem keep_v42_7_5 : V7 m ρ c main_v42 = V5 m ρ c main_v42 :=
  calc W7 m ρ c (Proc.devRef .tc main_v42)
    _ = W6 m ρ c (Proc.devRef .tc main_v42) := by host_keep
    _ = W5 m ρ c (Proc.devRef .tc main_v42) := W6_of_ne m ρ c main_v42 (by decide)

theorem keep_arg7_7_0 : V7 m ρ c main_arg7 = A7 :=
  calc W7 m ρ c (Proc.devRef .tc main_arg7)
    _ = W6 m ρ c (Proc.devRef .tc main_arg7) := by host_keep
    _ = W5 m ρ c (Proc.devRef .tc main_arg7) := W6_of_ne m ρ c main_arg7 (by decide)
    _ = W4 m ρ c (Proc.devRef .tc main_arg7) := by host_keep
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := by host_keep
    _ = A7 := rfl

theorem keep_arg9_7_0 : V7 m ρ c main_arg9 = A9 :=
  calc W7 m ρ c (Proc.devRef .tc main_arg9)
    _ = W6 m ρ c (Proc.devRef .tc main_arg9) := by host_keep
    _ = W5 m ρ c (Proc.devRef .tc main_arg9) := W6_of_ne m ρ c main_arg9 (by decide)
    _ = W4 m ρ c (Proc.devRef .tc main_arg9) := by host_keep
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by host_keep
    _ = A9 := rfl

theorem val_v57_8 : V8 m ρ c main_v57 = C1 :=
  (W8_arr m ρ c 4).trans ((Merge.final4 (V7 m ρ) c).trans (by rw [keep_v42_7_5, val_v42_5, val_v56_7, keep_arg7_7_0, keep_arg9_7_0]))

/-! ## Region 5: the first affine step of cell 2 -/

theorem keep_arg0_8_0 : V8 m ρ c main_arg0 = A0 :=
  calc W8 m ρ c (Proc.devRef .tc main_arg0)
    _ = W7 m ρ c (Proc.devRef .tc main_arg0) := W8_of_ne m ρ c main_arg0 (by decide)
    _ = W6 m ρ c (Proc.devRef .tc main_arg0) := by host_keep
    _ = W5 m ρ c (Proc.devRef .tc main_arg0) := W6_of_ne m ρ c main_arg0 (by decide)
    _ = W4 m ρ c (Proc.devRef .tc main_arg0) := by host_keep
    _ = W3 m ρ c (Proc.devRef .tc main_arg0) := W4_of_ne m ρ c main_arg0 (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by host_keep
    _ = A0 := rfl

theorem keep_arg10_8_0 : V8 m ρ c main_arg10 = A10 :=
  calc W8 m ρ c (Proc.devRef .tc main_arg10)
    _ = W7 m ρ c (Proc.devRef .tc main_arg10) := W8_of_ne m ρ c main_arg10 (by decide)
    _ = W6 m ρ c (Proc.devRef .tc main_arg10) := by host_keep
    _ = W5 m ρ c (Proc.devRef .tc main_arg10) := W6_of_ne m ρ c main_arg10 (by decide)
    _ = W4 m ρ c (Proc.devRef .tc main_arg10) := by host_keep
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := by host_keep
    _ = A10 := rfl

theorem keep_arg11_8_0 : V8 m ρ c main_arg11 = A11 :=
  calc W8 m ρ c (Proc.devRef .tc main_arg11)
    _ = W7 m ρ c (Proc.devRef .tc main_arg11) := W8_of_ne m ρ c main_arg11 (by decide)
    _ = W6 m ρ c (Proc.devRef .tc main_arg11) := by host_keep
    _ = W5 m ρ c (Proc.devRef .tc main_arg11) := W6_of_ne m ρ c main_arg11 (by decide)
    _ = W4 m ρ c (Proc.devRef .tc main_arg11) := by host_keep
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := by host_keep
    _ = A11 := rfl

theorem val_v58_9 : V9 m ρ c main_v58 = Q0 :=
  (W9_arr m ρ c 3).trans ((Affine.final5 (V8 m ρ) c).trans (by rw [keep_arg0_8_0, keep_arg10_8_0, keep_arg11_8_0]))

/-! ## Region 6: the second affine step of cell 2, over cell 1's output -/

theorem keep_v57_9_8 : V9 m ρ c main_v57 = V8 m ρ c main_v57 :=
  calc W9 m ρ c (Proc.devRef .tc main_v57)
    _ = W8 m ρ c (Proc.devRef .tc main_v57) := W9_of_ne m ρ c main_v57 (by decide)

theorem keep_arg12_9_0 : V9 m ρ c main_arg12 = A12 :=
  calc W9 m ρ c (Proc.devRef .tc main_arg12)
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := by host_keep
    _ = W5 m ρ c (Proc.devRef .tc main_arg12) := W6_of_ne m ρ c main_arg12 (by decide)
    _ = W4 m ρ c (Proc.devRef .tc main_arg12) := by host_keep
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := by host_keep
    _ = A12 := rfl

theorem keep_arg13_9_0 : V9 m ρ c main_arg13 = A13 :=
  calc W9 m ρ c (Proc.devRef .tc main_arg13)
    _ = W8 m ρ c (Proc.devRef .tc main_arg13) := W9_of_ne m ρ c main_arg13 (by decide)
    _ = W7 m ρ c (Proc.devRef .tc main_arg13) := W8_of_ne m ρ c main_arg13 (by decide)
    _ = W6 m ρ c (Proc.devRef .tc main_arg13) := by host_keep
    _ = W5 m ρ c (Proc.devRef .tc main_arg13) := W6_of_ne m ρ c main_arg13 (by decide)
    _ = W4 m ρ c (Proc.devRef .tc main_arg13) := by host_keep
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := by host_keep
    _ = A13 := rfl

theorem val_v59_10 : V10 m ρ c main_v59 = Q1 :=
  (W10_arr m ρ c 3).trans ((Affine.final6 (V9 m ρ) c).trans (by rw [keep_v57_9_8, val_v57_8, keep_arg12_9_0, keep_arg13_9_0]))

/-! ## Region 7: the transform in front of the third aggregation -/

theorem keep_v58_10_9 : V10 m ρ c main_v58 = V9 m ρ c main_v58 :=
  calc W10 m ρ c (Proc.devRef .tc main_v58)
    _ = W9 m ρ c (Proc.devRef .tc main_v58) := W10_of_ne m ρ c main_v58 (by decide)

theorem keep_arg14_10_0 : V10 m ρ c main_arg14 = A14 :=
  calc W10 m ρ c (Proc.devRef .tc main_arg14)
    _ = W9 m ρ c (Proc.devRef .tc main_arg14) := W10_of_ne m ρ c main_arg14 (by decide)
    _ = W8 m ρ c (Proc.devRef .tc main_arg14) := W9_of_ne m ρ c main_arg14 (by decide)
    _ = W7 m ρ c (Proc.devRef .tc main_arg14) := W8_of_ne m ρ c main_arg14 (by decide)
    _ = W6 m ρ c (Proc.devRef .tc main_arg14) := by host_keep
    _ = W5 m ρ c (Proc.devRef .tc main_arg14) := W6_of_ne m ρ c main_arg14 (by decide)
    _ = W4 m ρ c (Proc.devRef .tc main_arg14) := by host_keep
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := by host_keep
    _ = A14 := rfl

theorem val_v60_11 : V11 m ρ c main_v60 = E0 :=
  (W11_arr m ρ c 2).trans ((Dot.final7 (V10 m ρ) c).trans (by rw [keep_v58_10_9, val_v58_9, keep_arg14_10_0]))

/-! ## Host stretch: the first aggregation of cell 2 -/

theorem keep_v3_11_1 : V11 m ρ c main_v3 = V1 m ρ c main_v3 :=
  calc W11 m ρ c (Proc.devRef .tc main_v3)
    _ = W10 m ρ c (Proc.devRef .tc main_v3) := W11_of_ne m ρ c main_v3 (by decide)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := by host_keep
    _ = W5 m ρ c (Proc.devRef .tc main_v3) := W6_of_ne m ρ c main_v3 (by decide)
    _ = W4 m ρ c (Proc.devRef .tc main_v3) := by host_keep
    _ = W3 m ρ c (Proc.devRef .tc main_v3) := W4_of_ne m ρ c main_v3 (by decide)
    _ = W2 m ρ c (Proc.devRef .tc main_v3) := W3_of_ne m ρ c main_v3 (by decide)
    _ = W1 m ρ c (Proc.devRef .tc main_v3) := W2_of_ne m ρ c main_v3 (by decide)

theorem keep_v6_11_1 : V11 m ρ c main_v6 = V1 m ρ c main_v6 :=
  calc W11 m ρ c (Proc.devRef .tc main_v6)
    _ = W10 m ρ c (Proc.devRef .tc main_v6) := W11_of_ne m ρ c main_v6 (by decide)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_keep
    _ = W5 m ρ c (Proc.devRef .tc main_v6) := W6_of_ne m ρ c main_v6 (by decide)
    _ = W4 m ρ c (Proc.devRef .tc main_v6) := by host_keep
    _ = W3 m ρ c (Proc.devRef .tc main_v6) := W4_of_ne m ρ c main_v6 (by decide)
    _ = W2 m ρ c (Proc.devRef .tc main_v6) := W3_of_ne m ρ c main_v6 (by decide)
    _ = W1 m ρ c (Proc.devRef .tc main_v6) := W2_of_ne m ρ c main_v6 (by decide)

theorem keep_v26_11_1 : V11 m ρ c main_v26 = V1 m ρ c main_v26 :=
  calc W11 m ρ c (Proc.devRef .tc main_v26)
    _ = W10 m ρ c (Proc.devRef .tc main_v26) := W11_of_ne m ρ c main_v26 (by decide)
    _ = W9 m ρ c (Proc.devRef .tc main_v26) := W10_of_ne m ρ c main_v26 (by decide)
    _ = W8 m ρ c (Proc.devRef .tc main_v26) := W9_of_ne m ρ c main_v26 (by decide)
    _ = W7 m ρ c (Proc.devRef .tc main_v26) := W8_of_ne m ρ c main_v26 (by decide)
    _ = W6 m ρ c (Proc.devRef .tc main_v26) := by host_keep
    _ = W5 m ρ c (Proc.devRef .tc main_v26) := W6_of_ne m ρ c main_v26 (by decide)
    _ = W4 m ρ c (Proc.devRef .tc main_v26) := by host_keep
    _ = W3 m ρ c (Proc.devRef .tc main_v26) := W4_of_ne m ρ c main_v26 (by decide)
    _ = W2 m ρ c (Proc.devRef .tc main_v26) := W3_of_ne m ρ c main_v26 (by decide)
    _ = W1 m ρ c (Proc.devRef .tc main_v26) := W2_of_ne m ρ c main_v26 (by decide)

theorem agg_v73_12 : V12 m ρ c main_v73 = aggregate (V11 m ρ c main_v60) (V11 m ρ c main_v3) (V11 m ρ c main_v6) (V11 m ρ c main_v26) := by
  show StableHlo.after hostOps8 (W11 m ρ c) (Proc.devRef .tc main_v73) = _
  dsimp only [hostOps8]
  after_results_simp
  rfl
theorem val_v73_12 : V12 m ρ c main_v73 = H0 := by
  rw [agg_v73_12, val_v60_11, keep_v3_11_1, keep_v6_11_1, keep_v26_11_1, src_1, dst_1, norm_1]

/-! ## Region 8: the transform in front of the fourth aggregation -/

theorem keep_v59_12_10 : V12 m ρ c main_v59 = V10 m ρ c main_v59 :=
  calc W12 m ρ c (Proc.devRef .tc main_v59)
    _ = W11 m ρ c (Proc.devRef .tc main_v59) := by host_keep
    _ = W10 m ρ c (Proc.devRef .tc main_v59) := W11_of_ne m ρ c main_v59 (by decide)

theorem keep_arg16_12_0 : V12 m ρ c main_arg16 = A16 :=
  calc W12 m ρ c (Proc.devRef .tc main_arg16)
    _ = W11 m ρ c (Proc.devRef .tc main_arg16) := by host_keep
    _ = W10 m ρ c (Proc.devRef .tc main_arg16) := W11_of_ne m ρ c main_arg16 (by decide)
    _ = W9 m ρ c (Proc.devRef .tc main_arg16) := W10_of_ne m ρ c main_arg16 (by decide)
    _ = W8 m ρ c (Proc.devRef .tc main_arg16) := W9_of_ne m ρ c main_arg16 (by decide)
    _ = W7 m ρ c (Proc.devRef .tc main_arg16) := W8_of_ne m ρ c main_arg16 (by decide)
    _ = W6 m ρ c (Proc.devRef .tc main_arg16) := by host_keep
    _ = W5 m ρ c (Proc.devRef .tc main_arg16) := W6_of_ne m ρ c main_arg16 (by decide)
    _ = W4 m ρ c (Proc.devRef .tc main_arg16) := by host_keep
    _ = W3 m ρ c (Proc.devRef .tc main_arg16) := W4_of_ne m ρ c main_arg16 (by decide)
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := by host_keep
    _ = A16 := rfl

theorem val_v74_13 : V13 m ρ c main_v74 = E1 :=
  (W13_arr m ρ c 2).trans ((Dot.final8 (V12 m ρ) c).trans (by rw [keep_v59_12_10, val_v59_10, keep_arg16_12_0]))

/-! ## Host stretch: the second aggregation of cell 2 -/

theorem keep_v3_13_1 : V13 m ρ c main_v3 = V1 m ρ c main_v3 :=
  calc W13 m ρ c (Proc.devRef .tc main_v3)
    _ = W12 m ρ c (Proc.devRef .tc main_v3) := W13_of_ne m ρ c main_v3 (by decide)
    _ = W11 m ρ c (Proc.devRef .tc main_v3) := by host_keep
    _ = W10 m ρ c (Proc.devRef .tc main_v3) := W11_of_ne m ρ c main_v3 (by decide)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := by host_keep
    _ = W5 m ρ c (Proc.devRef .tc main_v3) := W6_of_ne m ρ c main_v3 (by decide)
    _ = W4 m ρ c (Proc.devRef .tc main_v3) := by host_keep
    _ = W3 m ρ c (Proc.devRef .tc main_v3) := W4_of_ne m ρ c main_v3 (by decide)
    _ = W2 m ρ c (Proc.devRef .tc main_v3) := W3_of_ne m ρ c main_v3 (by decide)
    _ = W1 m ρ c (Proc.devRef .tc main_v3) := W2_of_ne m ρ c main_v3 (by decide)

theorem keep_v6_13_1 : V13 m ρ c main_v6 = V1 m ρ c main_v6 :=
  calc W13 m ρ c (Proc.devRef .tc main_v6)
    _ = W12 m ρ c (Proc.devRef .tc main_v6) := W13_of_ne m ρ c main_v6 (by decide)
    _ = W11 m ρ c (Proc.devRef .tc main_v6) := by host_keep
    _ = W10 m ρ c (Proc.devRef .tc main_v6) := W11_of_ne m ρ c main_v6 (by decide)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_keep
    _ = W5 m ρ c (Proc.devRef .tc main_v6) := W6_of_ne m ρ c main_v6 (by decide)
    _ = W4 m ρ c (Proc.devRef .tc main_v6) := by host_keep
    _ = W3 m ρ c (Proc.devRef .tc main_v6) := W4_of_ne m ρ c main_v6 (by decide)
    _ = W2 m ρ c (Proc.devRef .tc main_v6) := W3_of_ne m ρ c main_v6 (by decide)
    _ = W1 m ρ c (Proc.devRef .tc main_v6) := W2_of_ne m ρ c main_v6 (by decide)

theorem keep_v26_13_1 : V13 m ρ c main_v26 = V1 m ρ c main_v26 :=
  calc W13 m ρ c (Proc.devRef .tc main_v26)
    _ = W12 m ρ c (Proc.devRef .tc main_v26) := W13_of_ne m ρ c main_v26 (by decide)
    _ = W11 m ρ c (Proc.devRef .tc main_v26) := by host_keep
    _ = W10 m ρ c (Proc.devRef .tc main_v26) := W11_of_ne m ρ c main_v26 (by decide)
    _ = W9 m ρ c (Proc.devRef .tc main_v26) := W10_of_ne m ρ c main_v26 (by decide)
    _ = W8 m ρ c (Proc.devRef .tc main_v26) := W9_of_ne m ρ c main_v26 (by decide)
    _ = W7 m ρ c (Proc.devRef .tc main_v26) := W8_of_ne m ρ c main_v26 (by decide)
    _ = W6 m ρ c (Proc.devRef .tc main_v26) := by host_keep
    _ = W5 m ρ c (Proc.devRef .tc main_v26) := W6_of_ne m ρ c main_v26 (by decide)
    _ = W4 m ρ c (Proc.devRef .tc main_v26) := by host_keep
    _ = W3 m ρ c (Proc.devRef .tc main_v26) := W4_of_ne m ρ c main_v26 (by decide)
    _ = W2 m ρ c (Proc.devRef .tc main_v26) := W3_of_ne m ρ c main_v26 (by decide)
    _ = W1 m ρ c (Proc.devRef .tc main_v26) := W2_of_ne m ρ c main_v26 (by decide)

theorem agg_v87_14 : V14 m ρ c main_v87 = aggregate (V13 m ρ c main_v74) (V13 m ρ c main_v3) (V13 m ρ c main_v6) (V13 m ρ c main_v26) := by
  show StableHlo.after hostOps9 (W13 m ρ c) (Proc.devRef .tc main_v87) = _
  dsimp only [hostOps9]
  after_results_simp
  rfl
theorem val_v87_14 : V14 m ρ c main_v87 = H1 := by
  rw [agg_v87_14, val_v74_13, keep_v3_13_1, keep_v6_13_1, keep_v26_13_1, src_1, dst_1, norm_1]

/-! ## Region 9: the merge of cell 2 -/

theorem keep_v73_14_12 : V14 m ρ c main_v73 = V12 m ρ c main_v73 :=
  calc W14 m ρ c (Proc.devRef .tc main_v73)
    _ = W13 m ρ c (Proc.devRef .tc main_v73) := by host_keep
    _ = W12 m ρ c (Proc.devRef .tc main_v73) := W13_of_ne m ρ c main_v73 (by decide)

theorem keep_arg15_14_0 : V14 m ρ c main_arg15 = A15 :=
  calc W14 m ρ c (Proc.devRef .tc main_arg15)
    _ = W13 m ρ c (Proc.devRef .tc main_arg15) := by host_keep
    _ = W12 m ρ c (Proc.devRef .tc main_arg15) := W13_of_ne m ρ c main_arg15 (by decide)
    _ = W11 m ρ c (Proc.devRef .tc main_arg15) := by host_keep
    _ = W10 m ρ c (Proc.devRef .tc main_arg15) := W11_of_ne m ρ c main_arg15 (by decide)
    _ = W9 m ρ c (Proc.devRef .tc main_arg15) := W10_of_ne m ρ c main_arg15 (by decide)
    _ = W8 m ρ c (Proc.devRef .tc main_arg15) := W9_of_ne m ρ c main_arg15 (by decide)
    _ = W7 m ρ c (Proc.devRef .tc main_arg15) := W8_of_ne m ρ c main_arg15 (by decide)
    _ = W6 m ρ c (Proc.devRef .tc main_arg15) := by host_keep
    _ = W5 m ρ c (Proc.devRef .tc main_arg15) := W6_of_ne m ρ c main_arg15 (by decide)
    _ = W4 m ρ c (Proc.devRef .tc main_arg15) := by host_keep
    _ = W3 m ρ c (Proc.devRef .tc main_arg15) := W4_of_ne m ρ c main_arg15 (by decide)
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := by host_keep
    _ = A15 := rfl

theorem keep_arg17_14_0 : V14 m ρ c main_arg17 = A17 :=
  calc W14 m ρ c (Proc.devRef .tc main_arg17)
    _ = W13 m ρ c (Proc.devRef .tc main_arg17) := by host_keep
    _ = W12 m ρ c (Proc.devRef .tc main_arg17) := W13_of_ne m ρ c main_arg17 (by decide)
    _ = W11 m ρ c (Proc.devRef .tc main_arg17) := by host_keep
    _ = W10 m ρ c (Proc.devRef .tc main_arg17) := W11_of_ne m ρ c main_arg17 (by decide)
    _ = W9 m ρ c (Proc.devRef .tc main_arg17) := W10_of_ne m ρ c main_arg17 (by decide)
    _ = W8 m ρ c (Proc.devRef .tc main_arg17) := W9_of_ne m ρ c main_arg17 (by decide)
    _ = W7 m ρ c (Proc.devRef .tc main_arg17) := W8_of_ne m ρ c main_arg17 (by decide)
    _ = W6 m ρ c (Proc.devRef .tc main_arg17) := by host_keep
    _ = W5 m ρ c (Proc.devRef .tc main_arg17) := W6_of_ne m ρ c main_arg17 (by decide)
    _ = W4 m ρ c (Proc.devRef .tc main_arg17) := by host_keep
    _ = W3 m ρ c (Proc.devRef .tc main_arg17) := W4_of_ne m ρ c main_arg17 (by decide)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := by host_keep
    _ = A17 := rfl

theorem val_v88_15 : V15 m ρ c main_v88 = C2 :=
  (W15_arr m ρ c 4).trans ((Merge.final9 (V14 m ρ) c).trans (by rw [keep_v73_14_12, val_v73_12, val_v87_14, keep_arg15_14_0, keep_arg17_14_0]))

/-! ## Region 10: the classifier -/

theorem keep_arg18_15_0 : V15 m ρ c main_arg18 = A18 :=
  calc W15 m ρ c (Proc.devRef .tc main_arg18)
    _ = W14 m ρ c (Proc.devRef .tc main_arg18) := W15_of_ne m ρ c main_arg18 (by decide)
    _ = W13 m ρ c (Proc.devRef .tc main_arg18) := by host_keep
    _ = W12 m ρ c (Proc.devRef .tc main_arg18) := W13_of_ne m ρ c main_arg18 (by decide)
    _ = W11 m ρ c (Proc.devRef .tc main_arg18) := by host_keep
    _ = W10 m ρ c (Proc.devRef .tc main_arg18) := W11_of_ne m ρ c main_arg18 (by decide)
    _ = W9 m ρ c (Proc.devRef .tc main_arg18) := W10_of_ne m ρ c main_arg18 (by decide)
    _ = W8 m ρ c (Proc.devRef .tc main_arg18) := W9_of_ne m ρ c main_arg18 (by decide)
    _ = W7 m ρ c (Proc.devRef .tc main_arg18) := W8_of_ne m ρ c main_arg18 (by decide)
    _ = W6 m ρ c (Proc.devRef .tc main_arg18) := by host_keep
    _ = W5 m ρ c (Proc.devRef .tc main_arg18) := W6_of_ne m ρ c main_arg18 (by decide)
    _ = W4 m ρ c (Proc.devRef .tc main_arg18) := by host_keep
    _ = W3 m ρ c (Proc.devRef .tc main_arg18) := W4_of_ne m ρ c main_arg18 (by decide)
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := by host_keep
    _ = A18 := rfl

theorem keep_arg19_15_0 : V15 m ρ c main_arg19 = A19 :=
  calc W15 m ρ c (Proc.devRef .tc main_arg19)
    _ = W14 m ρ c (Proc.devRef .tc main_arg19) := W15_of_ne m ρ c main_arg19 (by decide)
    _ = W13 m ρ c (Proc.devRef .tc main_arg19) := by host_keep
    _ = W12 m ρ c (Proc.devRef .tc main_arg19) := W13_of_ne m ρ c main_arg19 (by decide)
    _ = W11 m ρ c (Proc.devRef .tc main_arg19) := by host_keep
    _ = W10 m ρ c (Proc.devRef .tc main_arg19) := W11_of_ne m ρ c main_arg19 (by decide)
    _ = W9 m ρ c (Proc.devRef .tc main_arg19) := W10_of_ne m ρ c main_arg19 (by decide)
    _ = W8 m ρ c (Proc.devRef .tc main_arg19) := W9_of_ne m ρ c main_arg19 (by decide)
    _ = W7 m ρ c (Proc.devRef .tc main_arg19) := W8_of_ne m ρ c main_arg19 (by decide)
    _ = W6 m ρ c (Proc.devRef .tc main_arg19) := by host_keep
    _ = W5 m ρ c (Proc.devRef .tc main_arg19) := W6_of_ne m ρ c main_arg19 (by decide)
    _ = W4 m ρ c (Proc.devRef .tc main_arg19) := by host_keep
    _ = W3 m ρ c (Proc.devRef .tc main_arg19) := W4_of_ne m ρ c main_arg19 (by decide)
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := by host_keep
    _ = A19 := rfl

/-- The result array after the last region is the network of the launch contents of the twenty arguments. -/
theorem result_16 : W16 m ρ c (Proc.devRef .tc main_v89)
    = net A0 A1 A2 A3 A4 A5 A6 A7 A8 A9 A10 A11 A12 A13 A14 A15 A16 A17 A18 A19 :=
  (W16_arr m ρ c 3).trans ((Affine.final10 (V15 m ρ) c).trans (by rw [val_v88_15, keep_arg18_15_0, keep_arg19_15_0]; rfl))

end Cert.Gcn.Walk

end
-- ==== Proof.lean ====
/-
  A two-cell graph network on 100000 nodes with 128 features and 1700000 edges (the given edges and one self-loop
  per node), and a 40-class classifier. The kernel runs the dense steps — X·W + b, X·W, and the merge
  (S0 + b0) + (S0 + b0) + (S1 + b1) — as eleven tiled regions of ten node tiles each, and the graph steps (degree
  normalisation, gather, scale, scatter-add) as host operations between them; the reference runs everything on the
  host. On the extended reals both compute the same function of the twenty arguments (Proof/Net.lean `net`):
  a tile of a product is the same sums as the rows of the whole product, the bias is added in the same place, the
  merge groups its sums the same way, and the graph operations are the same operations on the same operands. No law
  beyond "the same operations in the same order" is used, so the precondition is never opened.

  The three frames are the generated ones (the reference's is its generated run with the result dropped); the
  idealization rewrote nothing, so `preserves` is trivial; `algebraic` puts the kernel's run with its result named
  (Proof/RunValue.lean), the walk of its sixteen segments (Proof/Walk.lean) and the reference's run read as the
  network (Proof/Net.lean) side by side.
-/
import proofs.«163266_j14061722927669_1_alg».proof.Defs
import proofs.«163266_j14061722927669_1_alg».proof.Proof.Gen.Kernel
import proofs.«163266_j14061722927669_1_alg».proof.Proof.Gen.Kernel.Frame
import proofs.«163266_j14061722927669_1_alg».proof.Proof.Gen.KernelIdeal
import proofs.«163266_j14061722927669_1_alg».proof.Proof.Gen.KernelIdeal.Frame
import proofs.«163266_j14061722927669_1_alg».proof.Proof.Gen.ReferenceIdeal
import proofs.«163266_j14061722927669_1_alg».proof.Proof.Gen.ReferenceIdeal.Run
import proofs.«163266_j14061722927669_1_alg».proof.Proof.Gen.ReferenceIdeal.Read
import proofs.«163266_j14061722927669_1_alg».proof.Proof.Gen.Pre_finite_inputs
import proofs.«163266_j14061722927669_1_alg».proof.Proof.RunValue
import proofs.«163266_j14061722927669_1_alg».proof.Proof.Walk
import proofs.«163266_j14061722927669_1_alg».proof.Proof.Net
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

set_option maxHeartbeats 4000000 in
/-- Both runs end with the result array at the network of the (agreeing) arguments. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono (fun r h c => ⟨(h c).1.trans (Cert.Gcn.Walk.result_16 m ρ c), (h c).2⟩)
      (Cert.Gcn.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v118_eq, Cert.Gcn.ref_net,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
